-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S600000x32 : Shape := ⟨2, ![600000, 32]⟩
abbrev S96x1 : Shape := ⟨2, ![96, 1]⟩
abbrev S1 : Shape := ⟨1, ![1]⟩
abbrev S1000000 : Shape := ⟨1, ![1000000]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S96x1 : S_.BroadcastsInDim S96x1 (![] : Fin 0 → Fin S96x1.rank)
  reducesTo_S96x1_S_d0_1 : S96x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1000000x64 .f32) (main_arg1 : FVec F S600000x32 .f32) (main_arg2 : FVec F S96x1 .f32) (main_arg3 : FVec F S1 .f32) (main_arg4 : IVec S1000000 32) (main_arg5 : IVec S1000000 32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S600000x32 .f32 := Host.absf main_arg1
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S96x1 .f32 := Host.absf main_arg2
  let main_cst_2 : FVec F S_ .f32 := constant S_ .f32 0x7F800000#32
  let main_v10 : FVec F S96x1 .f32 := broadcastInDim S96x1 ![] bcast_S_S96x1 main_cst_2
  let main_v11 : IVec S96x1 1 := cmpf .olt main_v9 main_v10
  let main_c_3 : IVec S_ 1 := constantI S_ 1 1#1
  let main_v12 : IVec S_ 1 := (fun x v => Host.reduce IntOp.andi x v reducesTo_S96x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1000000x64 : Shape := ⟨2, ![1000000, 64]⟩
abbrev S600000x32 : Shape := ⟨2, ![600000, 32]⟩
abbrev S96x1 : Shape := ⟨2, ![96, 1]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x32 : Shape := ⟨2, ![1000000, 32]⟩
abbrev S1000000x128 : Shape := ⟨2, ![1000000, 128]⟩
abbrev S10000x64 : Shape := ⟨2, ![10000, 64]⟩
abbrev S10000x32 : Shape := ⟨2, ![10000, 32]⟩
abbrev S10000x128 : Shape := ⟨2, ![10000, 128]⟩
abbrev S10000x1 : Shape := ⟨2, ![10000, 1]⟩
abbrev S10000x31 : Shape := ⟨2, ![10000, 31]⟩
abbrev S500000x128 : Shape := ⟨2, ![500000, 128]⟩
abbrev S128x1 : Shape := ⟨2, ![128, 1]⟩
abbrev S500000x1 : Shape := ⟨2, ![500000, 1]⟩
abbrev S1x1 : Shape := ⟨2, ![1, 1]⟩

abbrev nBuf : Space → Nat
  | .hbm => 42
  | .vmem => 12
  | .smem => 0
  | _ => 0

abbrev bufTy : (tb : Table) → Fin (tcTables nBuf tb) → BufTy
  | .hbm, ⟨0, _⟩ => ⟨S1000000x64, .f32⟩
  | .hbm, ⟨1, _⟩ => ⟨S600000x32, .f32⟩
  | .hbm, ⟨2, _⟩ => ⟨S96x1, .f32⟩
  | .hbm, ⟨3, _⟩ => ⟨S1, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S1000000x1, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x32, .f32⟩
  | .hbm, ⟨27, _⟩ => ⟨S_, .f32⟩
  | .hbm, ⟨28, _⟩ => ⟨S1000000x32, .i1⟩
  | .hbm, ⟨29, _⟩ => ⟨S1000000x32, .f32⟩
  | .hbm, ⟨30, _⟩ => ⟨S1000000x32, .f32⟩
  | .hbm, ⟨31, _⟩ => ⟨S1000000x128, .f32⟩
  | .hbm, ⟨32, _⟩ => ⟨S_, .f32⟩
  | .hbm, ⟨33, _⟩ => ⟨S500000x128, .f32⟩
  | .hbm, ⟨34, _⟩ => ⟨S1000000x1, .i32⟩
  | .hbm, ⟨35, _⟩ => ⟨S500000x128, .f32⟩
  | .hbm, ⟨36, _⟩ => ⟨S_, .f32⟩
  | .hbm, ⟨37, _⟩ => ⟨S128x1, .f32⟩
  | .hbm, ⟨38, _⟩ => ⟨S_, .i32⟩
  | .hbm, ⟨39, _⟩ => ⟨S1, .i32⟩
  | .hbm, ⟨40, _⟩ => ⟨S128x1, .f32⟩
  | .hbm, ⟨41, _⟩ => ⟨S500000x1, .f32⟩
  | .local _ .vmem, ⟨0, _⟩ => ⟨S10000x64, .f32⟩
  | .local _ .vmem, ⟨1, _⟩ => ⟨S10000x64, .f32⟩
  | .local _ .vmem, ⟨2, _⟩ => ⟨S10000x32, .f32⟩
  | .local _ .vmem, ⟨3, _⟩ => ⟨S10000x32, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x1, .f32⟩
  | .local _ .vmem, ⟨9, _⟩ => ⟨S1, .f32⟩
  | .local _ .vmem, ⟨10, _⟩ => ⟨S10000x1, .f32⟩
  | .local _ .vmem, ⟨11, _⟩ => ⟨S10000x1, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v3 : Ref sig .tc := ⟨.hbm, 17, rfl⟩
abbrev main_c_2 : Ref sig .tc := ⟨.hbm, 18, rfl⟩
abbrev main_v4 : Ref sig .tc := ⟨.hbm, 19, rfl⟩
abbrev main_v5 : Ref sig .tc := ⟨.hbm, 20, rfl⟩
abbrev main_c_3 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_c_6 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x32_0_1 : S1000000x1.BroadcastsInDim S1000000x32 (![0, 1] : Fin 2 → Fin S1000000x32.rank)
  bcast_S_S1000000x32 : S_.BroadcastsInDim S1000000x32 (![] : Fin 0 → Fin S1000000x32.rank)
  inb_S10000x64_S10000x64_0_0 : ∀ a, (![0, 0] : Fin 2 → Nat) a + S10000x64.size a ≤ S10000x64.size a
  h_S10000x64 : 0 < S10000x64.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  concatenates_S10000x64_S10000x32_S10000x1_S10000x31_S10000x128_d1 : Shape.Concatenates [S10000x64, S10000x32, S10000x1, S10000x31] S10000x128 1
  inb_S10000x128_S10000x128_0_0 : ∀ a, (![0, 0] : Fin 2 → Nat) a + S10000x128.size a ≤ S10000x128.size a
  h_S10000x128 : 0 < S10000x128.numel
  bcast_S_S500000x128 : S_.BroadcastsInDim S500000x128 (![] : Fin 0 → Fin S500000x128.rank)
  bcast_S_S128x1 : S_.BroadcastsInDim S128x1 (![] : Fin 0 → Fin S128x1.rank)
  bcast_S_S1 : S_.BroadcastsInDim S1 (![] : Fin 0 → Fin S1.rank)
  inb_S10000x128_S10000x1_0_96 : ∀ a, (![0, 96] : Fin 2 → Nat) a + S10000x1.size a ≤ S10000x128.size a
  h_S10000x1 : 0 < S10000x1.numel
  shapeCasts_S10000x1_S10000x1 : S10000x1.ShapeCasts S10000x1
  shapeCasts_S10000x128_S10000x128 : S10000x128.ShapeCasts S10000x128
  broadcasts_S10000x1_S10000x128 : S10000x1.Broadcasts S10000x128
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  gather_S600000x32_S1000000x1_S1000000x32_1_0_n_n_0_1_132_wf : GatherDims.WF S600000x32 S1000000x1 S1000000x32 [1] [0] [] [0] [] 1 ![1, 32]
  scatter_S500000x128_S1000000x1_S1000000x128_1_0_0_1_wf : ScatterDims.WF S500000x128 S1000000x1 S1000000x128 [1] [0] [0] 1
  scatter_S128x1_S1_S96x1_01_n_0_0_wf : ScatterDims.WF S128x1 S1 S96x1 [0, 1] [] [0] 0
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S1000000x32.size a
  hwx0_1 : ∀ i : grid0.Coords, EltTy.bits .f32 = 32 ∨ (Rect.block (s := S1000000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S1000000x128.size a
  hwx0_2 : ∀ i : grid0.Coords, EltTy.bits .f32 = 32 ∨ (Rect.block (s := S1000000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S500000x1.size a
  hwx1_3 : ∀ i : grid1.Coords, EltTy.bits .f32 = 32 ∨ (Rect.block (s := S500000x1) S10000x1.size (cc1_transform_3 i) (hinb1_3 i)).WholeWords (EltTy.packing .f32)

variable [Facts₀]

def gather_S600000x32_S1000000x1_S1000000x32_1_0_n_n_0_1_132 : GatherDims S600000x32 S1000000x1 S1000000x32 where
  offsetDims := [1]
  collapsedSliceDims := [0]
  operandBatchingDims := []
  startIndicesBatchingDims := []
  startIndexMap := [0]
  indexVectorDim := 1
  sliceSizes := ![1, 32]
  wf := gather_S600000x32_S1000000x1_S1000000x32_1_0_n_n_0_1_132_wf
def scatter_S500000x128_S1000000x1_S1000000x128_1_0_0_1 : ScatterDims S500000x128 S1000000x1 S1000000x128 where
  updateWindowDims := [1]
  insertedWindowDims := [0]
  scatterDimsToOperandDims := [0]
  indexVectorDim := 1
  wf := scatter_S500000x128_S1000000x1_S1000000x128_1_0_0_1_wf
def scatter_S128x1_S1_S96x1_01_n_0_0 : ScatterDims S128x1 S1 S96x1 where
  updateWindowDims := [0, 1]
  insertedWindowDims := []
  scatterDimsToOperandDims := [0]
  indexVectorDim := 0
  wf := scatter_S128x1_S1_S96x1_01_n_0_0_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x64 : Shape := ⟨2, ![1000000, 64]⟩
abbrev S600000x32 : Shape := ⟨2, ![600000, 32]⟩
abbrev S96x1 : Shape := ⟨2, ![96, 1]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x32 : Shape := ⟨2, ![1000000, 32]⟩
abbrev S1000000x96 : Shape := ⟨2, ![1000000, 96]⟩
abbrev S500000x96 : Shape := ⟨2, ![500000, 96]⟩
abbrev S500000 : Shape := ⟨1, ![500000]⟩
abbrev S500000x1 : Shape := ⟨2, ![500000, 1]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S600000x32, .f32⟩
  | .hbm, ⟨2, _⟩ => ⟨S96x1, .f32⟩
  | .hbm, ⟨3, _⟩ => ⟨S1, .f32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S1000000x1, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x32, .f32⟩
  | .hbm, ⟨27, _⟩ => ⟨S_, .f32⟩
  | .hbm, ⟨28, _⟩ => ⟨S1000000x32, .i1⟩
  | .hbm, ⟨29, _⟩ => ⟨S1000000x32, .f32⟩
  | .hbm, ⟨30, _⟩ => ⟨S1000000x32, .f32⟩
  | .hbm, ⟨31, _⟩ => ⟨S1000000x96, .f32⟩
  | .hbm, ⟨32, _⟩ => ⟨S_, .f32⟩
  | .hbm, ⟨33, _⟩ => ⟨S500000x96, .f32⟩
  | .hbm, ⟨34, _⟩ => ⟨S1000000x1, .i32⟩
  | .hbm, ⟨35, _⟩ => ⟨S500000x96, .f32⟩
  | .hbm, ⟨36, _⟩ => ⟨S_, .f32⟩
  | .hbm, ⟨37, _⟩ => ⟨S1000000, .f32⟩
  | .hbm, ⟨38, _⟩ => ⟨S_, .f32⟩
  | .hbm, ⟨39, _⟩ => ⟨S500000, .f32⟩
  | .hbm, ⟨40, _⟩ => ⟨S1000000x1, .i32⟩
  | .hbm, ⟨41, _⟩ => ⟨S500000, .f32⟩
  | .hbm, ⟨42, _⟩ => ⟨S_, .f32⟩
  | .hbm, ⟨43, _⟩ => ⟨S500000, .f32⟩
  | .hbm, ⟨44, _⟩ => ⟨S500000, .f32⟩
  | .hbm, ⟨45, _⟩ => ⟨S500000x1, .f32⟩
  | .hbm, ⟨46, _⟩ => ⟨S500000x96, .f32⟩
  | .hbm, ⟨47, _⟩ => ⟨S500000x96, .f32⟩
  | .hbm, ⟨48, _⟩ => ⟨S500000x1, .f32⟩
  | .hbm, ⟨49, _⟩ => ⟨S1x1, .f32⟩
  | .hbm, ⟨50, _⟩ => ⟨S500000x1, .f32⟩
  | .hbm, ⟨51, _⟩ => ⟨S500000x1, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v3 : Ref sig .tc := ⟨.hbm, 17, rfl⟩
abbrev main_c_2 : Ref sig .tc := ⟨.hbm, 18, rfl⟩
abbrev main_v4 : Ref sig .tc := ⟨.hbm, 19, rfl⟩
abbrev main_v5 : Ref sig .tc := ⟨.hbm, 20, rfl⟩
abbrev main_c_3 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_cst_6 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x32_0_1 : S1000000x1.BroadcastsInDim S1000000x32 (![0, 1] : Fin 2 → Fin S1000000x32.rank)
  bcast_S_S1000000x32 : S_.BroadcastsInDim S1000000x32 (![] : Fin 0 → Fin S1000000x32.rank)
  concatenates_S1000000x64_S1000000x32_S1000000x96_d1 : Shape.Concatenates [S1000000x64, S1000000x32] S1000000x96 1
  bcast_S_S500000x96 : S_.BroadcastsInDim S500000x96 (![] : Fin 0 → Fin S500000x96.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x96_0_1 : S500000x1.BroadcastsInDim S500000x96 (![0, 1] : Fin 2 → Fin S500000x96.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S600000x32_S1000000x1_S1000000x32_1_0_n_n_0_1_132_wf : GatherDims.WF S600000x32 S1000000x1 S1000000x32 [1] [0] [] [0] [] 1 ![1, 32]
  scatter_S500000x96_S1000000x1_S1000000x96_1_0_0_1_wf : ScatterDims.WF S500000x96 S1000000x1 S1000000x96 [1] [0] [0] 1
  scatter_S500000_S1000000x1_S1000000_n_0_0_1_wf : ScatterDims.WF S500000 S1000000x1 S1000000 [] [0] [0] 1
  dot_S500000x96_S96x1_S500000x1_1_0_0_1_n_n_wf : DotDims.WF S500000x96 S96x1 S500000x1 [1] [0] [0] [1] [] []

variable [Facts₀]

def gather_S600000x32_S1000000x1_S1000000x32_1_0_n_n_0_1_132 : GatherDims S600000x32 S1000000x1 S1000000x32 where
  offsetDims := [1]
  collapsedSliceDims := [0]
  operandBatchingDims := []
  startIndicesBatchingDims := []
  startIndexMap := [0]
  indexVectorDim := 1
  sliceSizes := ![1, 32]
  wf := gather_S600000x32_S1000000x1_S1000000x32_1_0_n_n_0_1_132_wf
def scatter_S500000x96_S1000000x1_S1000000x96_1_0_0_1 : ScatterDims S500000x96 S1000000x1 S1000000x96 where
  updateWindowDims := [1]
  insertedWindowDims := [0]
  scatterDimsToOperandDims := [0]
  indexVectorDim := 1
  wf := scatter_S500000x96_S1000000x1_S1000000x96_1_0_0_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def dot_S500000x96_S96x1_S500000x1_1_0_0_1_n_n : DotDims S500000x96 S96x1 S500000x1 where
  lhsContracting := [1]
  rhsContracting := [0]
  lhsNonContracting := [0]
  rhsNonContracting := [1]
  lhsBatch := []
  rhsBatch := []
  wf := dot_S500000x96_S96x1_S500000x1_1_0_0_1_n_n_wf

class Facts : Prop extends Facts₀ where

variable [Facts]
-- ==== Proof.KernelRun.lean ====
/-
  The idealized kernel's run, with its result named.

  @main is seven segments: four stretches of host operations (the index clamp, the gather, the mask), the first
  pallas call, one more stretch (the segment sum and the zero-padding of the weights), and the second pallas call.
  Every weakly fair execution ends with each unscoped buffer at the contents the last boundary names; read at the
  result buffer this is what the second call's write-backs leave in its output array, and read at an argument it is
  the argument as launched.
-/
import proofs.«116335_j82454782149367_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer holding what the
    second call's pipeline leaves in its output array (entered from the contents after the last host stretch) and the
    six arguments as launched. -/
theorem run : θ_run defs (onTc (τ := τ) (main (F := F))) ⟨m, fun _ => 0, ρ⟩ (fun r => ∀ c : Dev nD,
      r.2.mem ((c.tc : Thread nD τ).loc main_v19) = (dat1 (V6 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v19 (by decide))).trans (W7_arr m ρ c 3),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.MaskedAux.lean ====
/-
  The masked auxiliary features, as both programs compute them on the host before anything else.

  For every point n the index idx_map[n] is clamped to [0, 599999], a negative clamped index would be moved up by
  600000 (none is), row idx of the auxiliary table is gathered, and the row is kept where idx_map[n] ≥ 0 and
  replaced by zeros elsewhere. The kernel's program and the reference apply the same twenty-five operations, in the
  same order, to the same two arguments; the composition is named here once, spelt over the kernel's records, and
  never opened: both sides only ever see it as one array of 1000000 × 32 extended reals.
-/
import proofs.«116335_j82454782149367_2_alg».proof.KernelIdeal
import proofs.«116335_j82454782149367_2_alg».proof.Proof.Gen.KernelIdeal
import Idealize.ShloMosaic.PureOps.Ideal

noncomputable section

namespace Cert.Masked

open Idealize.ShloMosaic
open Cert.KernelIdeal Cert.KernelIdeal.Facts₀

/-- The auxiliary table gathered at the clamped indices, zeroed where the point has no match. -/
def aux (x1 : FVec Ideal S600000x32 .f32) (x4 : IVec S1000000 32) : FVec Ideal S1000000x32 .f32 :=
  select (broadcastInDim S1000000x32 ![0, 1] bcast_S1000000x1_S1000000x32_0_1 (broadcastInDim S1000000x1 ![0] bcast_S1000000_S1000000x1_0 (cmpi .sge x4 (broadcastInDim S1000000 ![] bcast_S_S1000000 (constantI S_ 32 0#32))))) (Host.gather gather_S600000x32_S1000000x1_S1000000x32_1_0_n_n_0_1_132 x1 (broadcastInDim S1000000x1 ![0] bcast_S1000000_S1000000x1_0 (select (cmpi .slt (minsi (broadcastInDim S1000000 ![] bcast_S_S1000000 (id (constantI S_ 32 599999#32))) (maxsi (broadcastInDim S1000000 ![] bcast_S_S1000000 (id (constantI S_ 32 0#32))) x4)) (broadcastInDim S1000000 ![] bcast_S_S1000000 (constantI S_ 32 0#32))) (addi (minsi (broadcastInDim S1000000 ![] bcast_S_S1000000 (id (constantI S_ 32 599999#32))) (maxsi (broadcastInDim S1000000 ![] bcast_S_S1000000 (id (constantI S_ 32 0#32))) x4)) (broadcastInDim S1000000 ![] bcast_S_S1000000 (constantI S_ 32 600000#32))) (minsi (broadcastInDim S1000000 ![] bcast_S_S1000000 (id (constantI S_ 32 599999#32))) (maxsi (broadcastInDim S1000000 ![] bcast_S_S1000000 (id (constantI S_ 32 0#32))) x4))))) (broadcastInDim S1000000x32 ![] bcast_S_S1000000x32 (constant (F := Ideal) S_ .f32 0x00000000#32))

end Cert.Masked

end
-- ==== Proof.HostValues.lean ====
/-
  What the host operations of the idealized kernel leave in the buffers the two pallas calls read.

  Before the first call: the features are the first argument untouched, and the auxiliary array is the masked
  gather of the second argument at the fifth. Between the calls: the per-segment sums are the scatter-add, into
  zeros, of the first call's output rows at the segment indices (the sixth argument, one index per row); the weights
  are the 96 given weights written at row 0 of a 128-row column of zeros; the bias is the fourth argument untouched.
-/
import proofs.«116335_j82454782149367_2_alg».proof.Proof.Gen.KernelIdeal.Frame
import proofs.«116335_j82454782149367_2_alg».proof.Proof.MaskedAux
import Idealize.ShloMosaic.Lib.StableHlo.Run

set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- No host operation before the first call writes an argument: argument k is as launched. -/
theorem entry0_arg0 (c : Dev nD) : V4 m ρ c main_arg0 = m ((c : Thread nD τ).loc main_arg0) := by
  show StableHlo.after hostOps0_3 (StableHlo.after hostOps0_2 (StableHlo.after hostOps0_1 (StableHlo.after hostOps0 (W0 m ρ c)))) (Proc.devRef .tc main_arg0) = _
  after_results

set_option maxHeartbeats 2000000 in
/-- The auxiliary array the first call reads is the masked gather of the second argument at the fifth. -/
theorem entry0_aux (c : Dev nD) :
    (V4 m ρ c main_v11 : FVec Ideal S1000000x32 .f32)
      = Cert.Masked.aux (m ((c : Thread nD τ).loc main_arg1)) (m ((c : Thread nD τ).loc main_arg4)) := by
  show StableHlo.after hostOps0_3 (StableHlo.after hostOps0_2 (StableHlo.after hostOps0_1 (StableHlo.after hostOps0 (W0 m ρ c)))) (Proc.devRef .tc main_v11) = _
  after_results_simp
  rfl

/-- The first call writes none of the arguments, and no host operation before it does: after the first call
    arguments 2, 3 and 5 are still as launched. -/
theorem mid_arg5 (c : Dev nD) : W5 m ρ c (Proc.devRef .tc main_arg5) = m ((c : Thread nD τ).loc main_arg5) := by
  rw [W5_of_ne m ρ c main_arg5 (by decide)]
  show StableHlo.after hostOps0_3 (StableHlo.after hostOps0_2 (StableHlo.after hostOps0_1 (StableHlo.after hostOps0 (W0 m ρ c)))) (Proc.devRef .tc main_arg5) = _
  after_results

theorem mid_arg2 (c : Dev nD) : W5 m ρ c (Proc.devRef .tc main_arg2) = m ((c : Thread nD τ).loc main_arg2) := by
  rw [W5_of_ne m ρ c main_arg2 (by decide)]
  show StableHlo.after hostOps0_3 (StableHlo.after hostOps0_2 (StableHlo.after hostOps0_1 (StableHlo.after hostOps0 (W0 m ρ c)))) (Proc.devRef .tc main_arg2) = _
  after_results

theorem mid_arg3 (c : Dev nD) : W5 m ρ c (Proc.devRef .tc main_arg3) = m ((c : Thread nD τ).loc main_arg3) := by
  rw [W5_of_ne m ρ c main_arg3 (by decide)]
  show StableHlo.after hostOps0_3 (StableHlo.after hostOps0_2 (StableHlo.after hostOps0_1 (StableHlo.after hostOps0 (W0 m ρ c)))) (Proc.devRef .tc main_arg3) = _
  after_results

/-- The sums the second call reads: the scatter-add, into zeros, of the first call's output rows at the segment
    indices. -/
theorem entry1_sums (c : Dev nD) :
    (V6 m ρ c main_v15 : FVec Ideal S500000x128 .f32)
      = Host.scatterAdd scatter_S500000x128_S1000000x1_S1000000x128_1_0_0_1
          (broadcastInDim S500000x128 ![] Facts₀.bcast_S_S500000x128 (constant (F := Ideal) S_ .f32 0x00000000#32))
          (broadcastInDim S1000000x1 ![0] Facts₀.bcast_S1000000_S1000000x1_0 (m ((c : Thread nD τ).loc main_arg5)))
          ((dat0 (V4 m ρ) c).arrAt 2 cfg0.N) := by
  show StableHlo.after hostOps1 (W5 m ρ c) (Proc.devRef .tc main_v15) = _
  after_results
  have h12 : W5 m ρ c (Proc.devRef .tc main_v12) = (dat0 (V4 m ρ) c).arrAt 2 cfg0.N := W5_arr m ρ c 2
  rw [mid_arg5, h12]

/-- The weights the second call reads: the 96 given weights written at row 0 of a 128-row column of zeros. -/
theorem entry1_weights (c : Dev nD) :
    (V6 m ρ c main_v18 : FVec Ideal S128x1 .f32)
      = Host.scatter scatter_S128x1_S1_S96x1_01_n_0_0 (fun _ b => b)
          (broadcastInDim S128x1 ![] Facts₀.bcast_S_S128x1 (constant (F := Ideal) S_ .f32 0x00000000#32))
          (broadcastInDim S1 ![] Facts₀.bcast_S_S1 (constantI S_ 32 0#32)) (m ((c : Thread nD τ).loc main_arg2)) := by
  show StableHlo.after hostOps1 (W5 m ρ c) (Proc.devRef .tc main_v18) = _
  after_results
  rw [mid_arg2]

/-- The bias the second call reads is the fourth argument as launched. -/
theorem entry1_bias (c : Dev nD) : V6 m ρ c main_arg3 = m ((c : Thread nD τ).loc main_arg3) := by
  show StableHlo.after hostOps1 (W5 m ρ c) (Proc.devRef .tc main_arg3) = _
  after_results
  exact mid_arg3 m ρ c

end Cert.KernelIdeal.HostValues

end
-- ==== Proof.Spec.lean ====
/-
  What the two pallas calls of the decoder compute, each as one function of the arrays it reads, index by index,
  over the extended reals.

  * `packed feats aux` — the first call packs, for every point n, a 128-lane row: lanes 0..63 the point's 64
    features, lanes 64..95 its 32 (already masked) auxiliary features, lane 96 the constant one, lanes 97..127 zero.
    Summed over the points of a segment, lane 96 therefore counts the segment's points.
  * `project sums w b` — the second call turns every row k of per-segment sums into one number: each of the
    128 lanes is divided by max(lane 96, 1), the quotients are multiplied by the 128 weights and added up, and the
    bias is added.
-/
import Idealize.ShloMosaic.PureOps.Ideal
import Idealize.ShloMosaic.Lib.ValueIdx

noncomputable section

open scoped BigOperators

namespace Cert.Decoder

open Idealize.ShloMosaic Idealize.ShloMosaic.ValueIdx

/-- The number one, as the f32 pattern both programs print for it. -/
abbrev one : EReal := Ideal.ofBits .f32 0x3F800000#32
/-- The number zero, as the f32 pattern both programs print for it. -/
abbrev zero : EReal := Ideal.ofBits .f32 0x00000000#32

/-- Row n of the packed array: the features, the auxiliary features, a one, zeros. -/
def packed (feats : (⟨2, ![1000000, 64]⟩ : Shape).Idx → EReal) (aux : (⟨2, ![1000000, 32]⟩ : Shape).Idx → EReal) :
    (⟨2, ![1000000, 128]⟩ : Shape).Idx → EReal := fun i =>
  if h : (i 1).val < 64 then feats (ix2 (⟨(i 0).val, idx2_lt0 i⟩ : Fin 1000000) (⟨(i 1).val, h⟩ : Fin 64))
  else if h' : (i 1).val < 96 then
    aux (ix2 (⟨(i 0).val, idx2_lt0 i⟩ : Fin 1000000) (⟨(i 1).val - 64, by omega⟩ : Fin 32))
  else if (i 1).val = 96 then one else zero

/-- Row k of the projection: Σ over the 128 lanes l of (sums(k, l) / max(sums(k, 96), 1)) · w(l), plus the bias. -/
def project (sums : (⟨2, ![500000, 128]⟩ : Shape).Idx → EReal) (w : (⟨2, ![128, 1]⟩ : Shape).Idx → EReal)
    (b : (⟨1, ![1]⟩ : Shape).Idx → EReal) : (⟨2, ![500000, 1]⟩ : Shape).Idx → EReal := fun i =>
  (∑ l : Fin 128,
      Ideal.div (sums (ix2 (⟨(i 0).val, idx2_lt0 i⟩ : Fin 500000) l))
          (max (sums (ix2 (⟨(i 0).val, idx2_lt0 i⟩ : Fin 500000) (96 : Fin 128))) one)
        * w (ix2 l (0 : Fin 1)))
    + b (ix1 (0 : Fin 1))

end Cert.Decoder

end
-- ==== Proof.PackedRows.lean ====
import proofs.«116335_j82454782149367_2_alg».proof.Proof.Gen.KernelIdeal.Frame
import proofs.«116335_j82454782149367_2_alg».proof.Proof.Spec
import Idealize.ShloMosaic.Lib.Pipeline.Value
import Idealize.ShloMosaic.Lib.ValueIdx

noncomputable section

/-!
  What the program's first kernel leaves in its output array, as one function of the two arrays it reads.

  The kernel runs over 100 grid points; point t reads rows 10000·t .. 10000·t + 9999 of the feature array (64 lanes)
  and of the auxiliary array (32 lanes) and writes the same rows of the output (128 lanes). The body lays four pieces
  side by side along the lane axis: the features, the auxiliary features, a column of ones, 31 columns of zeros. So
  row n of the output is [features of n | auxiliary features of n | 1 | 0 … 0], which is the specification's
  `packed`. The proof reads the concatenation at an index (the piece whose span holds the lane), identifies each
  input block's element with the array's element at the same row, and then assembles the 100 written blocks, which
  tile the array.
-/

namespace Cert.KernelIdeal.PackedRows

open Cert.KernelIdeal Cert.KernelIdeal.Gen Idealize.ShloMosaic Idealize.ShloMosaic.TcCoe Idealize.SL.Sem
open Idealize.ShloMosaic.Pipeline (Dat)
open Idealize.ShloMosaic.ValueIdx

/-! ## The body's value at an index -/

/-- The body's value: the four pieces laid side by side along the lane axis. The cast of the auxiliary block to
    its own shape is the identity; the two broadcast constants are the constant functions. -/
theorem pay_pieces (x0 : Vec Ideal S10000x64 .f32) (x1 : Vec Ideal S10000x32 .f32) :
    k0_pay1 (F := Ideal) x0 x1
      = concatenate S10000x128 1
          [⟨S10000x64, x0⟩, ⟨S10000x32, x1⟩, ⟨S10000x1, fun _ => Cert.Decoder.one⟩, ⟨S10000x31, fun _ => Cert.Decoder.zero⟩]
          concatenates_S10000x64_S10000x32_S10000x1_S10000x31_S10000x128_d1 := by
  unfold k0_pay1
  rw [shapeCast_self]
  rfl

/-- Lanes 0..63 of a packed row are the feature block's lanes. -/
theorem pay_feat (x0 : Vec Ideal S10000x64 .f32) (x1 : Vec Ideal S10000x32 .f32) (r : Fin 10000) (l : Fin 128) (h : l.val < 64) :
    k0_pay1 (F := Ideal) x0 x1 (ix2 r l) = x0 (ix2 r (⟨l.val, h⟩ : Fin 64)) := by
  rw [pay_pieces]
  refine concatenate_apply_piece (1 : Fin 2) [⟨S10000x64, x0⟩, ⟨S10000x32, x1⟩, ⟨S10000x1, fun _ => Cert.Decoder.one⟩, ⟨S10000x31, fun _ => Cert.Decoder.zero⟩] _ (ix2 r l) 0 (by show (0 : Nat) < 4; omega) S10000x64 x0 rfl rfl 0 rfl (ix2 r (⟨l.val, h⟩ : Fin 64)) ?_ ?_
  · intro b hb
    match b with
    | ⟨0, _⟩ => rfl
    | ⟨1, _⟩ => exact absurd rfl hb
  · show 0 + l.val = l.val
    omega

/-- Lanes 64..95 are the auxiliary block's lanes 0..31. -/
theorem pay_aux (x0 : Vec Ideal S10000x64 .f32) (x1 : Vec Ideal S10000x32 .f32) (r : Fin 10000) (l : Fin 128) (h : 64 ≤ l.val) (h' : l.val < 96) :
    k0_pay1 (F := Ideal) x0 x1 (ix2 r l) = x1 (ix2 r (⟨l.val - 64, by omega⟩ : Fin 32)) := by
  rw [pay_pieces]
  refine concatenate_apply_piece (1 : Fin 2) [⟨S10000x64, x0⟩, ⟨S10000x32, x1⟩, ⟨S10000x1, fun _ => Cert.Decoder.one⟩, ⟨S10000x31, fun _ => Cert.Decoder.zero⟩] _ (ix2 r l) 1 (by show (1 : Nat) < 4; omega) S10000x32 x1 rfl rfl 64 rfl (ix2 r (⟨l.val - 64, by omega⟩ : Fin 32)) ?_ ?_
  · intro b hb
    match b with
    | ⟨0, _⟩ => rfl
    | ⟨1, _⟩ => exact absurd rfl hb
  · show 64 + (l.val - 64) = l.val
    omega

/-- Lane 96 is the constant one. -/
theorem pay_one (x0 : Vec Ideal S10000x64 .f32) (x1 : Vec Ideal S10000x32 .f32) (r : Fin 10000) (l : Fin 128) (h : l.val = 96) :
    k0_pay1 (F := Ideal) x0 x1 (ix2 r l) = Cert.Decoder.one := by
  rw [pay_pieces]
  refine concatenate_apply_piece (1 : Fin 2) [⟨S10000x64, x0⟩, ⟨S10000x32, x1⟩, ⟨S10000x1, fun _ => Cert.Decoder.one⟩, ⟨S10000x31, fun _ => Cert.Decoder.zero⟩] _ (ix2 r l) 2 (by show (2 : Nat) < 4; omega) S10000x1 (fun _ => Cert.Decoder.one) rfl rfl 96 rfl (ix2 r (0 : Fin 1)) ?_ ?_
  · intro b hb
    match b with
    | ⟨0, _⟩ => rfl
    | ⟨1, _⟩ => exact absurd rfl hb
  · show 96 + 0 = l.val
    omega

/-- Lanes 97..127 are zero. -/
theorem pay_zero (x0 : Vec Ideal S10000x64 .f32) (x1 : Vec Ideal S10000x32 .f32) (r : Fin 10000) (l : Fin 128) (h : 97 ≤ l.val) :
    k0_pay1 (F := Ideal) x0 x1 (ix2 r l) = Cert.Decoder.zero := by
  rw [pay_pieces]
  refine concatenate_apply_piece (1 : Fin 2) [⟨S10000x64, x0⟩, ⟨S10000x32, x1⟩, ⟨S10000x1, fun _ => Cert.Decoder.one⟩, ⟨S10000x31, fun _ => Cert.Decoder.zero⟩] _ (ix2 r l) 3 (by show (3 : Nat) < 4; omega) S10000x31 (fun _ => Cert.Decoder.zero) rfl rfl 97 rfl (ix2 r (⟨l.val - 97, by omega⟩ : Fin 31)) ?_ ?_
  · intro b hb
    match b with
    | ⟨0, _⟩ => rfl
    | ⟨1, _⟩ => exact absurd rfl hb
  · show 97 + (l.val - 97) = l.val
    omega

/-- One element of the packed block is the specification's element at the array index the block's rectangle sends
    it to, given that the two input blocks hold the two arrays' rows at that index's row. -/
theorem pay_packed (x0 : Vec Ideal S10000x64 .f32) (x1 : Vec Ideal S10000x32 .f32)
    (feats : (⟨2, ![1000000, 64]⟩ : Shape).Idx → EReal) (aux : (⟨2, ![1000000, 32]⟩ : Shape).Idx → EReal)
    (r : Fin 10000) (l : Fin 128) (i : (⟨2, ![1000000, 128]⟩ : Shape).Idx) (hl : (i 1).val = l.val)
    (h0 : ∀ q : Fin 64, x0 (ix2 r q) = feats (ix2 (⟨(i 0).val, idx2_lt0 i⟩ : Fin 1000000) q))
    (h1 : ∀ q : Fin 32, x1 (ix2 r q) = aux (ix2 (⟨(i 0).val, idx2_lt0 i⟩ : Fin 1000000) q)) :
    k0_pay1 (F := Ideal) x0 x1 (ix2 r l) = Cert.Decoder.packed feats aux i := by
  unfold Cert.Decoder.packed
  by_cases c0 : l.val < 64
  · have c0' : (i 1).val < 64 := by omega
    rw [pay_feat x0 x1 r l c0, dif_pos c0', h0]
    have e : (⟨l.val, c0⟩ : Fin 64) = ⟨(i 1).val, c0'⟩ := Fin.ext hl.symm
    rw [e]
  · have c0' : ¬ (i 1).val < 64 := by omega
    rw [dif_neg c0']
    by_cases c1 : l.val < 96
    · have c1' : (i 1).val < 96 := by omega
      rw [pay_aux x0 x1 r l (by omega) c1, dif_pos c1', h1]
      have e : (⟨l.val - 64, by omega⟩ : Fin 32) = ⟨(i 1).val - 64, by omega⟩ := Fin.ext (by show l.val - 64 = (i 1).val - 64; omega)
      rw [e]
    · have c1' : ¬ (i 1).val < 96 := by omega
      rw [dif_neg c1']
      by_cases c2 : l.val = 96
      · rw [pay_one x0 x1 r l c2, if_pos (by omega : (i 1).val = 96)]
      · rw [pay_zero x0 x1 r l (by omega), if_neg (by omega : ¬ (i 1).val = 96)]

/-! ## From blocks to the array -/

theorem zero_offsets : (![0, 0] : Fin 2 → Nat) = fun _ => 0 := funext fun a => by fin_cases a <;> rfl

/-- The three windows' printed index maps, decided over the 100 grid points: each window's block at point t is
    block t along the rows and block 0 along the lanes. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What grid point t writes back is block t of the packed array. -/
theorem flushed_eq (c : Dev nD) (t : Fin cfg0.N) :
    (dat0 (F := Ideal) V c).flushed 2 t
      = ((cfg0.win 2).blk t).view.read (Elt Ideal) (Cert.Decoder.packed (V c main_arg0) (V c main_v11)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S10000x32) zero_offsets]
  obtain ⟨e0, e1, e2, e3, e4, e5⟩ := idx_facts t
  funext y
  obtain ⟨r, l, rfl⟩ : ∃ (r : Fin 10000) (l : Fin 128), y = ix2 r l := ⟨y 0, y 1, eq_ix2 y⟩
  show k0_pay1 (F := Ideal) (iblk0 V c 0 t) (iblk0 V c 1 t) (ix2 r l)
      = Cert.Decoder.packed (V c main_arg0) (V c main_v11) (((cfg0.win 2).blk t).view.emb (ix2 r l))
  refine pay_packed _ _ _ _ r l _ ?_ ?_ ?_
  · show win0_2.index t (1 : Fin 2) * 128 + 1 * l.val = l.val
    omega
  · intro q
    show V c main_arg0 (((cfg0.win 0).blk t).view.emb (ix2 r q)) = V c main_arg0 _
    refine congrArg _ (funext fun a => Fin.ext ?_)
    match a with
    | ⟨0, _⟩ => show win0_0.index t (0 : Fin 2) * 10000 + 1 * r.val = win0_2.index t (0 : Fin 2) * 10000 + 1 * r.val; omega
    | ⟨1, _⟩ => show win0_0.index t (1 : Fin 2) * 64 + 1 * q.val = q.val; omega
  · intro q
    show V c main_v11 (((cfg0.win 1).blk t).view.emb (ix2 r q)) = V c main_v11 _
    refine congrArg _ (funext fun a => Fin.ext ?_)
    match a with
    | ⟨0, _⟩ => show win0_1.index t (0 : Fin 2) * 10000 + 1 * r.val = win0_2.index t (0 : Fin 2) * 10000 + 1 * r.val; omega
    | ⟨1, _⟩ => show win0_1.index t (1 : Fin 2) * 32 + 1 * q.val = q.val; omega

/-- An index of the array is in point t's block iff each coordinate is in the block's range on its axis. -/
theorem mem_blk (t : Fin cfg0.N) (i : S1000000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v12).slice (win0_2.rect t)).set ↔ _
  rw [View.set_slice_whole, Rect.mem_set_unit]
  exact Iff.rfl

/-- Every row n of the array is in the block of the grid point n / 10000. -/
theorem cover (i : S1000000x128.Idx) :
    ∃ t : Fin cfg0.N, (cfg0.win 2).flush t = true ∧ i ∈ ((cfg0.win 2).blk t).view.set := by
  have hi0 : (i 0).val < 1000000 := (i 0).isLt
  have hi1 : (i 1).val < 128 := (i 1).isLt
  obtain ⟨t, ht⟩ : ∃ t : Fin cfg0.N, t.val = (i 0).val / 10000 :=
    ⟨⟨(i 0).val / 10000, by show _ < grid0.N; rw [N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The first kernel leaves the packed array: every block written back is the specification's block, and the
    blocks cover the array. -/
theorem packed_array (c : Dev nD) :
    (Gen.dat0 (F := Ideal) V c).arrAt 2 cfg0.N = Cert.Decoder.packed (V c main_arg0) (V c main_v11) :=
  (dat0 (F := Ideal) V c).arrAt_eq_of_cover 2 (Cert.Decoder.packed (V c main_arg0) (V c main_v11))
    (fun t _ => flushed_eq V c t) cover
end

end Cert.KernelIdeal.PackedRows

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.ProjectPayload.lean ====
/-
  What the second call's body computes for one row of its block.

  The body divides the 128 lanes of row r by max(lane 96 of that row, 1), multiplies the quotients by the 128
  weights (one column) on the matrix unit, starting from zero, and adds the one bias. Read at row r this is
  Σ over the lanes l of (x(r, l) / max(c(r), 1)) · w(l), plus the bias: the format changes on the way to the
  matrix unit are the identity over the extended reals, the column of maxima is spread over the lanes, and the
  product into a zero accumulator is the plain sum of products.
-/
import proofs.«116335_j82454782149367_2_alg».proof.Proof.Gen.KernelIdeal.Skeleton
import proofs.«116335_j82454782149367_2_alg».proof.Proof.Spec
import proofs.«116335_j82454782149367_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.ProjectPayload

open Cert.KernelIdeal Cert.KernelIdeal.Gen Idealize.ShloMosaic Idealize.ShloMosaic.ValueIdx

/-- A one-element vector has one index. -/
theorem idx1_eq (k : S1.Idx) : k = ix1 (0 : Fin 1) :=
  funext fun a => Fin.ext (by
    match a with
    | ⟨0, _⟩ => exact (show (k 0).val = 0 from by have h : (k 0).val < 1 := (k 0).isLt; omega))

/-- The column of per-row divisors spread over the 128 lanes, read at (r, l), is the column at row r. -/
theorem spread_apply (d : FVec Ideal S10000x1 .f32) (r : Fin 10000) (l : Fin 128) :
    broadcastTo S10000x128 d Facts₀.broadcasts_S10000x1_S10000x128 (ix2 r l) = d (ix2 r (0 : Fin 1)) :=
  broadcastTo_apply d _ (ix2 r l) (ix2 r (0 : Fin 1)) (fun a => match a with
    | ⟨0, _⟩ => by show r.val = if (10000 : Nat) = 1 then 0 else r.val; rw [if_neg (by decide)]
    | ⟨1, _⟩ => by show 0 = if (1 : Nat) = 1 then 0 else l.val; rw [if_pos rfl])

/-- The bias, viewed as a 1×1 array and spread over the rows, read at any row, is the bias. -/
theorem bias_apply (b : Vec Ideal S1 .f32) (r : Fin 10000) :
    broadcastTo S10000x1 (shapeCast S1x1 b Facts₀.shapeCasts_S1_S1x1) Facts₀.broadcasts_S1x1_S10000x1 (ix2 r (0 : Fin 1))
      = b (ix1 (0 : Fin 1)) := by
  rw [broadcastTo_apply _ _ (ix2 r (0 : Fin 1)) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else 0; rw [if_pos rfl])]
  unfold shapeCast
  exact congrArg b (idx1_eq _)

/-- Row r of the body's stored value. -/
theorem pay_apply (v0 : Vec Ideal S10000x1 .f32) (v4 : Vec Ideal S10000x128 .f32) (v9 : Vec Ideal S128x1 .f32)
    (v13 : Vec Ideal S1 .f32) (r : Fin 10000) :
    k1_pay1 (F := Ideal) v0 v4 v9 v13 (ix2 r (0 : Fin 1))
      = (∑ l : Fin 128, Ideal.div (v4 (ix2 r l)) (max (v0 (ix2 r (0 : Fin 1))) Cert.Decoder.one) * v9 (ix2 l (0 : Fin 1)))
          + v13 (ix1 (0 : Fin 1)) := by
  unfold k1_pay1
  rw [addf_apply, bias_apply]
  refine congrArg (· + v13 (ix1 (0 : Fin 1))) ?_
  refine (Cert.PlainDot.matmul_zero_apply (m := 10000) (k := 128) (n := 1)
    dot_S10000x128_S128x1_S10000x1_1_0_0_1_n_n rfl none _ _ r (0 : Fin 1)).trans ?_
  refine Finset.sum_congr rfl fun l _ => ?_
  rw [truncf_apply, truncf_apply, divf_apply, shapeCast_self, shapeCast_self, spread_apply, maximumf_apply,
    shapeCast_self]
  rfl

end Cert.KernelIdeal.ProjectPayload

end
-- ==== Proof.ProjectedRows.lean ====
/-
  What the program's second kernel leaves in its output array, as one function of the three arrays it reads.

  The kernel runs over 50 grid points; point t reads rows 10000·t .. 10000·t + 9999 of the per-segment sums (128
  lanes), the whole 128 × 1 column of weights and the one bias, and writes the same rows of the 500000 × 1 result.
  Row r of the body's value is Σ over the lanes l of (x(r, l) / max(x(r, 96), 1)) · w(l), plus the bias, where the
  divisor's lane 96 is read by a second load of the same block one column wide. Identifying each block's element
  with the array's element at the same row, and assembling the 50 written blocks, which tile the array, gives the
  specification's `project`.
-/
import proofs.«116335_j82454782149367_2_alg».proof.Proof.Gen.KernelIdeal.Frame
import proofs.«116335_j82454782149367_2_alg».proof.Proof.Spec
import proofs.«116335_j82454782149367_2_alg».proof.Proof.ProjectPayload
import Idealize.ShloMosaic.Lib.Pipeline.Value
import Idealize.ShloMosaic.Lib.ValueIdx

noncomputable section

open scoped BigOperators

namespace Cert.KernelIdeal.ProjectedRows

open Cert.KernelIdeal Cert.KernelIdeal.Gen Idealize.ShloMosaic Idealize.ShloMosaic.TcCoe Idealize.SL.Sem
open Idealize.ShloMosaic.Pipeline (Dat)
open Idealize.ShloMosaic.ValueIdx

theorem zero_offsets2 : (![0, 0] : Fin 2 → Nat) = fun _ => 0 := funext fun a => by fin_cases a <;> rfl
theorem zero_offsets1 : (![0] : Fin 1 → Nat) = fun _ => 0 := funext fun a => by fin_cases a; rfl

/-- The one-column load at lane 96 of a block, read at row r, is the block at (r, 96). -/
theorem count_lane (x0 : Vec Ideal S10000x128 .f32) (r : Fin 10000) :
    View.ld x0 r1_0 (ix2 r (0 : Fin 1)) = x0 (ix2 r (96 : Fin 128)) := by
  show x0 (r1_0.emb (ix2 r (0 : Fin 1))) = _
  refine congrArg x0 (funext fun a => Fin.ext ?_)
  match a with
  | ⟨0, _⟩ => show 0 + 1 * r.val = r.val; omega
  | ⟨1, _⟩ => show 96 + 1 * 0 = 96; rfl

/-- The four windows' printed index maps, decided over the 50 grid points: the sums' and the result's block at
    point t is block t along the rows; the weights and the bias are one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What grid point t writes back is block t of the projected array. -/
theorem flushed_eq (c : Dev nD) (t : Fin cfg1.N) :
    (dat1 (F := Ideal) V c).flushed 3 t
      = ((cfg1.win 3).blk t).view.read (Elt Ideal)
          (Cert.Decoder.project (V c main_v15) (V c main_v18) (V c main_arg3)) := by
  show (cfg1.win 3).cut (grid1.coords t) ((dat1 V c).after 3 t) = _
  rw [after1_3]
  unfold out1_3
  rw [View.canon_unit_zero zero_offsets2]
  simp only [View.ld_unit_zero (S := S10000x128) zero_offsets2, View.ld_unit_zero (S := S128x1) zero_offsets2,
    View.ld_unit_zero (S := S1) zero_offsets1]
  obtain ⟨e0, e1, e2, e3, e4, e5, e6⟩ := idx_facts t
  funext y
  obtain ⟨r, q, rfl⟩ : ∃ (r : Fin 10000) (q : Fin 1), y = ix2 r q := ⟨y 0, y 1, eq_ix2 y⟩
  obtain rfl : q = 0 := Subsingleton.elim _ _
  show k1_pay1 (F := Ideal) (View.ld (iblk1 V c 0 t) r1_0) (iblk1 V c 0 t) (iblk1 V c 1 t) (iblk1 V c 2 t) (ix2 r (0 : Fin 1))
      = Cert.Decoder.project (V c main_v15) (V c main_v18) (V c main_arg3) (((cfg1.win 3).blk t).view.emb (ix2 r (0 : Fin 1)))
  rw [ProjectPayload.pay_apply, count_lane]
  unfold Cert.Decoder.project
  have hrow : ∀ l : Fin 128, iblk1 V c 0 t (ix2 r l)
      = V c main_v15 (ix2 (⟨((((cfg1.win 3).blk t).view.emb (ix2 r (0 : Fin 1))) 0).val, idx2_lt0 _⟩ : Fin 500000) l) := by
    intro l
    show V c main_v15 (((cfg1.win 0).blk t).view.emb (ix2 r l)) = V c main_v15 _
    refine congrArg _ (funext fun a => Fin.ext ?_)
    match a with
    | ⟨0, _⟩ => show win1_0.index t (0 : Fin 2) * 10000 + 1 * r.val = win1_3.index t (0 : Fin 2) * 10000 + 1 * r.val; omega
    | ⟨1, _⟩ => show win1_0.index t (1 : Fin 2) * 128 + 1 * l.val = l.val; omega
  have hw : ∀ l : Fin 128, iblk1 V c 1 t (ix2 l (0 : Fin 1)) = V c main_v18 (ix2 l (0 : Fin 1)) := by
    intro l
    show V c main_v18 (((cfg1.win 1).blk t).view.emb (ix2 l (0 : Fin 1))) = V c main_v18 _
    refine congrArg _ (funext fun a => Fin.ext ?_)
    match a with
    | ⟨0, _⟩ => show win1_1.index t (0 : Fin 2) * 128 + 1 * l.val = l.val; omega
    | ⟨1, _⟩ => show win1_1.index t (1 : Fin 2) * 1 + 1 * 0 = 0; omega
  have hb : iblk1 V c 2 t (ix1 (0 : Fin 1)) = V c main_arg3 (ix1 (0 : Fin 1)) := by
    show V c main_arg3 (((cfg1.win 2).blk t).view.emb (ix1 (0 : Fin 1))) = V c main_arg3 _
    refine congrArg _ (funext fun a => Fin.ext ?_)
    match a with
    | ⟨0, _⟩ => show win1_2.index t (0 : Fin 1) * 1 + 1 * 0 = 0; omega
  rw [hb, hrow (96 : Fin 128)]
  refine congrArg (· + V c main_arg3 (ix1 (0 : Fin 1))) ?_
  refine Finset.sum_congr rfl fun l _ => ?_
  rw [hrow l, hw l]

/-- An index of the array is in point t's block iff each coordinate is in the block's range on its axis. -/
theorem mem_blk (t : Fin cfg1.N) (i : S500000x1.Idx) :
    i ∈ ((cfg1.win 3).blk t).view.set ↔ ∀ a : Fin 2, win1_3.index t a * S10000x1.size a ≤ (i a).val ∧ (i a).val < win1_3.index t a * S10000x1.size a + S10000x1.size a := by
  show i ∈ ((View.whole main_v19).slice (win1_3.rect t)).set ↔ _
  rw [View.set_slice_whole, Rect.mem_set_unit]
  exact Iff.rfl

/-- Every row k of the result is in the block of the grid point k / 10000. -/
theorem cover (i : S500000x1.Idx) :
    ∃ t : Fin cfg1.N, (cfg1.win 3).flush t = true ∧ i ∈ ((cfg1.win 3).blk t).view.set := by
  have hi0 : (i 0).val < 500000 := (i 0).isLt
  have hi1 : (i 1).val < 1 := (i 1).isLt
  obtain ⟨t, ht⟩ : ∃ t : Fin cfg1.N, t.val = (i 0).val / 10000 :=
    ⟨⟨(i 0).val / 10000, by show _ < grid1.N; rw [N_1]; omega⟩, rfl⟩
  obtain ⟨e0, e1, e2, e3, e4, e5, e6⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 1 ≤ (i 1).val ∧ (i 1).val < win1_3.index t (1 : Fin 2) * 1 + 1; omega

/-- The second kernel leaves the projected array: every block written back is the specification's block, and the
    blocks cover the array. -/
theorem projected_array (c : Dev nD) :
    (Gen.dat1 (F := Ideal) V c).arrAt 3 cfg1.N
      = Cert.Decoder.project (V c main_v15) (V c main_v18) (V c main_arg3) :=
  (dat1 (F := Ideal) V c).arrAt_eq_of_cover 3 (Cert.Decoder.project (V c main_v15) (V c main_v18) (V c main_arg3))
    (fun t _ => flushed_eq V c t) cover
end

end Cert.KernelIdeal.ProjectedRows

end
-- ==== Proof.SegmentMean.lean ====
/-
  The common form of both programs' result.

  Let seg n be the segment of point n (an integer; only values in [0, 500000) matter) and row n the 96 real
  features of point n (64 features, then 32 masked auxiliary features). For segment k:
    sum(k, l) = Σ over the points n with seg n = k of row n l,     count(k) = Σ over those points of 1,
    result(k) = Σ over the 96 lanes l of (sum(k, l) / max(count(k), 1)) · w(l), plus the bias.
  The sums start from the f32 zero both programs scatter into, kept as that pattern: it is the same word on both
  sides and is never evaluated.
-/
import Idealize.ShloMosaic.PureOps.Ideal
import Idealize.ShloMosaic.Lib.ValueIdx
import proofs.«116335_j82454782149367_2_alg».proof.Proof.Spec

noncomputable section

open scoped BigOperators

namespace Cert.Decoder

open Idealize.ShloMosaic Idealize.ShloMosaic.ValueIdx

/-- The sum of f over the points of segment k, on top of the zero the scatter starts from. -/
def segSum (seg : Fin 1000000 → Int) (f : Fin 1000000 → EReal) (k : Fin 500000) : EReal :=
  zero + ∑ n : Fin 1000000, if seg n = (k.val : Int) then f n else 0

/-- The segment mean of the 96 real lanes, projected by the 96 weights, plus the bias. -/
def segMeanProject (seg : Fin 1000000 → Int) (row : Fin 1000000 → Fin 96 → EReal)
    (w : (⟨2, ![96, 1]⟩ : Shape).Idx → EReal) (b : (⟨1, ![1]⟩ : Shape).Idx → EReal) (k : Fin 500000) : EReal :=
  (∑ l : Fin 96,
      Ideal.div (segSum seg (fun n => row n l) k) (max (segSum seg (fun _ => one) k) one) * w (ix2 l (0 : Fin 1)))
    + b (ix1 (0 : Fin 1))

/-- Lane l < 96 of point n's packed row. -/
def realLane (feats : (⟨2, ![1000000, 64]⟩ : Shape).Idx → EReal) (aux : (⟨2, ![1000000, 32]⟩ : Shape).Idx → EReal)
    (n : Fin 1000000) (l : Fin 96) : EReal :=
  packed feats aux (ix2 n (Fin.castAdd 32 l))

/-- The whole result array in the common form: row k is the projected segment mean of segment k. -/
def result (feats : (⟨2, ![1000000, 64]⟩ : Shape).Idx → EReal) (aux : (⟨2, ![1000000, 32]⟩ : Shape).Idx → EReal)
    (w : (⟨2, ![96, 1]⟩ : Shape).Idx → EReal) (b : (⟨1, ![1]⟩ : Shape).Idx → EReal) (seg : Fin 1000000 → Int) :
    (⟨2, ![500000, 1]⟩ : Shape).Idx → EReal :=
  fun i => segMeanProject seg (realLane feats aux) w b (⟨(i 0).val, idx2_lt0 i⟩ : Fin 500000)

/-- Row k of the result array. -/
theorem result_apply (feats : (⟨2, ![1000000, 64]⟩ : Shape).Idx → EReal) (aux : (⟨2, ![1000000, 32]⟩ : Shape).Idx → EReal)
    (w : (⟨2, ![96, 1]⟩ : Shape).Idx → EReal) (b : (⟨1, ![1]⟩ : Shape).Idx → EReal) (seg : Fin 1000000 → Int)
    (k : Fin 500000) :
    result feats aux w b seg (ix2 k (0 : Fin 1)) = segMeanProject seg (realLane feats aux) w b k := rfl

/-- Every index of a one-column array is (row, 0). -/
theorem col_idx (i : (⟨2, ![500000, 1]⟩ : Shape).Idx) :
    i = ix2 (⟨(i 0).val, idx2_lt0 i⟩ : Fin 500000) (0 : Fin 1) := by
  funext a
  match a with
  | ⟨0, _⟩ => rfl
  | ⟨1, _⟩ => exact Fin.ext (by show (i 1).val = 0; have h : (i 1).val < 1 := (i 1).isLt; omega)

end Cert.Decoder

end
-- ==== Proof.LibScatter.lean ====
/-
  General facts about the host scatter, read at one operand index.

  A scatter walks the update indices in row-major order; each update lands at one operand index (start index plus
  window coordinate) or is dropped when that index leaves the operand. Read at ONE operand index `i`, only the
  updates landing at `i` matter, in their row-major order:

  * `scatter_apply`      — the value at `i` is the left fold of the body over the updates that land at `i`, from the
                            operand's own element;
  * `scatter_of_none`    — when no update lands at `i` the value is the operand's element, whatever the body;
  * `scatter_set_of_unique` — for a body that returns the update (an assignment): when exactly one update lands at `i`
                            the value is that update;
  * `scatter_add_one_toNat` — for the integer sum of the constant one into zeros (a histogram): the value at `i` is the
                            number of updates landing at `i`, when that number fits the word.
-/
import Idealize.ShloMosaic.PureOps.ShapeOps
import Idealize.ShloMosaic.PureOps.Dims
import Mathlib.Data.List.Basic

namespace Cert.LibScatter

open Idealize.ShloMosaic

variable {s si u : Shape} {α : Type} {w : Nat}

/-- The scatter's step function: update number `n` (row-major) replaces the element at its landing index by the body
    of that element and the update, and changes nothing when it is dropped. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

/-- One step read at `i`: the body is applied exactly when the update lands at `i`. -/
theorem step_apply (d : ScatterDims s si u) (f : α → α → α) (idx : IVec si w) (upd : u.Idx → α) (r : s.Idx → α)
    (n : Fin u.numel) (i : s.Idx) :
    step d f idx upd r n i
      = if d.resultIdx? (u.rowMajor.symm n) idx = some i then f (r i) (upd (u.rowMajor.symm n)) else r i := by
  unfold step
  cases h : d.resultIdx? (u.rowMajor.symm n) idx with
  | none => simp
  | some k =>
    by_cases hk : i = k
    · subst hk; simp
    · have : ¬ (some k = some i) := fun e => hk (Option.some.inj e).symm
      simp [hk, this]

/-- A fold of steps read at `i` is the fold of the body over the updates of the list that land at `i`. -/
theorem foldl_step_apply (d : ScatterDims s si u) (f : α → α → α) (idx : IVec si w) (upd : u.Idx → α)
    (L : List (Fin u.numel)) (r : s.Idx → α) (i : s.Idx) :
    L.foldl (step d f idx upd) r i
      = (L.filter fun n => decide (d.resultIdx? (u.rowMajor.symm n) idx = some i)).foldl
          (fun a n => f a (upd (u.rowMajor.symm n))) (r i) := by
  induction L generalizing r with
  | nil => rfl
  | cons n L ih =>
    rw [List.foldl_cons, ih, step_apply]
    by_cases h : d.resultIdx? (u.rowMajor.symm n) idx = some i
    · rw [List.filter_cons_of_pos (by simpa using h), List.foldl_cons, if_pos h]
    · rw [List.filter_cons_of_neg (by simpa using h), if_neg h]

/-- THE SCATTER AT AN INDEX: the left fold of the body, from the operand's element at `i`, over the updates that land at
    `i`, in row-major order. -/
theorem scatter_apply (d : ScatterDims s si u) (f : α → α → α) (x : s.Idx → α) (idx : IVec si w) (upd : u.Idx → α)
    (i : s.Idx) :
    Host.scatter d f x idx upd i
      = ((List.finRange u.numel).filter fun n => decide (d.resultIdx? (u.rowMajor.symm n) idx = some i)).foldl
          (fun a n => f a (upd (u.rowMajor.symm n))) (x i) := by
  rw [scatter_eq_foldl, foldl_step_apply]

/-- No update lands at `i`: the operand's element stays, whatever the body. -/
theorem scatter_of_none (d : ScatterDims s si u) (f : α → α → α) (x : s.Idx → α) (idx : IVec si w) (upd : u.Idx → α)
    (i : s.Idx) (h : ∀ j : u.Idx, d.resultIdx? j idx ≠ some i) :
    Host.scatter d f x idx upd i = x i := by
  rw [scatter_apply]
  have : ((List.finRange u.numel).filter fun n => decide (d.resultIdx? (u.rowMajor.symm n) idx = some i)) = [] := by
    rw [List.filter_eq_nil_iff]
    intro n _
    simpa using h (u.rowMajor.symm n)
  rw [this]; rfl

/-- The updates landing at `i`, when `j₀` is the only one: the one-element list of its row-major number. -/
theorem filter_of_unique (d : ScatterDims s si u) (idx : IVec si w) (i : s.Idx) (j₀ : u.Idx)
    (h₀ : d.resultIdx? j₀ idx = some i) (huniq : ∀ j : u.Idx, d.resultIdx? j idx = some i → j = j₀) :
    ((List.finRange u.numel).filter fun n => decide (d.resultIdx? (u.rowMajor.symm n) idx = some i))
      = [u.rowMajor j₀] := by
  have hp : ∀ n : Fin u.numel, decide (d.resultIdx? (u.rowMajor.symm n) idx = some i) = (n == u.rowMajor j₀) := by
    intro n
    by_cases hn : n = u.rowMajor j₀
    · subst hn; simp [h₀]
    · have : ¬ d.resultIdx? (u.rowMajor.symm n) idx = some i := fun e => hn (by
        have := huniq _ e; rw [← this]; simp)
      simp [hn, this]
  rw [List.filter_congr (fun n _ => hp n), List.filter_beq,
    List.count_eq_one_of_mem (List.nodup_finRange _) (List.mem_finRange _)]
  rfl

/-- An assignment (the body returns the update): when `j₀` is the one update landing at `i`, the value at `i` is that
    update. -/
theorem scatter_set_of_unique (d : ScatterDims s si u) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d (fun _ b => b) x idx upd i = upd j₀ := by
  rw [scatter_apply, filter_of_unique d idx i j₀ h₀ huniq]
  simp

/-- A left fold of word addition of the constant one over a list, from zero, counts the list (when the count fits). -/
theorem foldl_add_one_toNat {β : Type} (L : List β) (a : BitVec w) (hfit : a.toNat + L.length < 2 ^ w) :
    (L.foldl (fun (r : BitVec w) (_ : β) => IntOp.addi r (1 : BitVec w)) a).toNat = a.toNat + L.length := by
  induction L generalizing a with
  | nil => simp
  | cons b L ih =>
    rw [List.foldl_cons]
    have hfit' : a.toNat + (L.length + 1) < 2 ^ w := by rw [List.length_cons] at hfit; exact hfit
    have hpow : 1 < 2 ^ w := by
      rcases Nat.eq_zero_or_pos w with hw | hw
      · subst hw; omega
      · exact Nat.one_lt_two_pow (by omega)
    have hone : (1 : BitVec w).toNat = 1 := by
      show (BitVec.ofNat w 1).toNat = 1
      rw [BitVec.toNat_ofNat]; exact Nat.mod_eq_of_lt hpow
    have h1 : (IntOp.addi a (1 : BitVec w)).toNat = a.toNat + 1 := by
      unfold IntOp.addi
      rw [BitVec.toNat_add, hone]; exact Nat.mod_eq_of_lt (by omega)
    rw [ih _ (by rw [h1]; omega), h1, List.length_cons]; omega

/-- A histogram: the integer sum of the constant one scattered into zeros holds, at `i`, the number of updates that
    land at `i` (when that number fits the word). -/
theorem scatter_add_one_toNat (d : ScatterDims s si u) (x : s.Idx → BitVec w) (idx : IVec si w) (upd : u.Idx → BitVec w)
    (i : s.Idx) (hx : x i = 0) (hupd : ∀ j, upd j = 1)
    (hfit : ((List.finRange u.numel).filter fun n => decide (d.resultIdx? (u.rowMajor.symm n) idx = some i)).length < 2 ^ w) :
    (Host.scatter d IntOp.addi x idx upd i).toNat
      = ((List.finRange u.numel).filter fun n => decide (d.resultIdx? (u.rowMajor.symm n) idx = some i)).length := by
  rw [scatter_apply]
  have : (fun (a : BitVec w) (n : Fin u.numel) => IntOp.addi a (upd (u.rowMajor.symm n)))
      = fun (a : BitVec w) (_ : Fin u.numel) => IntOp.addi a (1 : BitVec w) := by
    funext a n; rw [hupd]
  rw [this, foldl_add_one_toNat _ _ (by rw [hx]; simpa using hfit), hx]
  simp

end Cert.LibScatter
-- ==== Proof.LibScatterRows.lean ====
/-
  The landing index of an update for two row-scatter layouts, in closed form, and the accumulating scatter of rows
  re-indexed by the row number.

  * Rows (`resultIdx?_rows`): the operand is `K × C`, the updates are `N × C`, and each update row carries one start
    index. Update `(n, l)` lands at `(k, l')` exactly when the `n`-th start index, read as a signed integer, is `k` and
    `l' = l`: a row keeps its lane, and a start index outside `[0, K)` lands nowhere. Consequently
    (`hostScatterAdd_rows_apply`) the accumulated element `(k, l)` is the operand's element plus the sum, over the rows
    `n` whose start index is `k`, of the update's element `(n, l)`.
  * Row block (`resultIdx?_rowBlock`): an `R × Q` block written into a `P × Q` array at one start row, read off a
    one-element index vector. Update `(r, q)` lands at `(p, q')` exactly when the start row, read signed, plus `r` is
    `p` and `q' = q`.
-/
import Idealize.ShloMosaic.PureOps.ShapeOps
import Idealize.ShloMosaic.PureOps.Dims
import Idealize.ShloMosaic.PureOps.Ideal
import Idealize.ShloMosaic.Lib.ValueIdx

noncomputable section

open scoped BigOperators

namespace Cert.LibScatter

open Idealize.ShloMosaic Idealize.ShloMosaic.ValueIdx

variable {N K C P Q R w : Nat}

section Rows

variable (d : ScatterDims ⟨2, ![K, C]⟩ ⟨2, ![N, 1]⟩ ⟨2, ![N, C]⟩)
    (h1 : d.updateWindowDims = [1]) (h2 : d.insertedWindowDims = [0]) (h3 : d.scatterDimsToOperandDims = [0])
    (h4 : d.indexVectorDim = 1)

include h1 h2 h3 h4 in
/-- The start of update `j` on the row axis is its row's start index, read signed. -/
theorem start_rows0 (j : (⟨2, ![N, C]⟩ : Shape).Idx) (idx : IVec ⟨2, ![N, 1]⟩ w) :
    d.start j idx 0 = (idx (ix2 (j 0) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The lane axis has no start index: its start is zero. -/
theorem start_rows1 (j : (⟨2, ![N, C]⟩ : Shape).Idx) (idx : IVec ⟨2, ![N, 1]⟩ w) : d.start j idx 1 = 0 := by
  obtain ⟨uw, iw, sd, iv, wf⟩ := d
  subst h1 h2 h3 h4
  unfold ScatterDims.start
  rw [dif_neg]
  simp

include h1 h2 h3 h4 in
/-- The row axis is an inserted one: its window coordinate is zero. -/
theorem window_rows0 (j : (⟨2, ![N, C]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- The lane axis is the window axis: the window coordinate is the update's lane. -/
theorem window_rows1 (j : (⟨2, ![N, C]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(n, l)` lands at `(k, l')` exactly when row `n`'s start index, read signed, is `k` and `l' = l`. -/
theorem resultIdx?_rows (j : (⟨2, ![N, C]⟩ : Shape).Idx) (idx : IVec ⟨2, ![N, 1]⟩ w) (i : (⟨2, ![K, C]⟩ : Shape).Idx) :
    d.resultIdx? j idx = some i ↔ (idx (ix2 (j 0) 0)).toInt = ((i 0).val : Int) ∧ (i 1).val = (j 1).val := by
  have hs0 := start_rows0 d h1 h2 h3 h4 j idx
  have hs1 := start_rows1 d h1 h2 h3 h4 j idx
  have hw0 := window_rows0 d h1 h2 h3 h4 j
  have hw1 := window_rows1 d h1 h2 h3 h4 j
  have hi0 : (i 0).val < K := (i 0).isLt
  have hi1 : (i 1).val < C := (i 1).isLt
  have hj1 : (j 1).val < C := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![K, C]⟩ : Shape).size a := by
      intro a
      match a with
      | ⟨0, _⟩ =>
        show 0 ≤ d.start j idx 0 + ↑(d.window j 0) ∧ d.start j idx 0 + ↑(d.window j 0) < ((K : Nat) : Int)
        rw [hs0, hw0, e0]; omega
      | ⟨1, _⟩ =>
        show 0 ≤ d.start j idx 1 + ↑(d.window j 1) ∧ d.start j idx 1 + ↑(d.window j 1) < ((C : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

include h1 h2 h3 h4 in
/-- The accumulated element `(k, l)` is the operand's element plus the sum of the updates' elements `(n, l)` over
    the rows `n` whose start index, read signed, is `k`. -/
theorem hostScatterAdd_rows_apply (x : (⟨2, ![K, C]⟩ : Shape).Idx → EReal) (idx : IVec ⟨2, ![N, 1]⟩ w)
    (upd : (⟨2, ![N, C]⟩ : Shape).Idx → EReal) (k : Fin K) (l : Fin C) :
    Ideal.hostScatterAdd d x idx upd (ix2 k l)
      = x (ix2 k l) + ∑ n : Fin N, if (idx (ix2 n 0)).toInt = (k.val : Int) then upd (ix2 n l) else 0 := by
  unfold Ideal.hostScatterAdd
  congr 1
  rw [Finset.sum_filter, sum_idx2]
  apply Finset.sum_congr rfl
  intro n _
  -- the landing condition of update (n, l') at (k, l): row n's start index is k, and l' = l
  have hcond : ∀ l' : Fin C, (d.resultIdx? (ix2 n l') idx = some (ix2 k l)) ↔
      ((idx (ix2 n 0)).toInt = (k.val : Int) ∧ l = l') := by
    intro l'
    rw [resultIdx?_rows d h1 h2 h3 h4]
    constructor
    · rintro ⟨a, b⟩; exact ⟨a, Fin.ext b⟩
    · rintro ⟨a, b⟩; exact ⟨a, congrArg Fin.val b⟩
  by_cases hA : (idx (ix2 n 0)).toInt = (k.val : Int)
  · rw [if_pos hA, Finset.sum_eq_single l]
    · rw [if_pos ((hcond l).2 ⟨hA, rfl⟩)]
    · intro l' _ hne
      rw [if_neg]
      intro h
      exact hne ((hcond l').1 h).2.symm
    · intro h
      exact absurd (Finset.mem_univ l) h
  · rw [if_neg hA]
    apply Finset.sum_eq_zero
    intro l' _
    rw [if_neg]
    intro h
    exact hA ((hcond l').1 h).1

end Rows

section RowBlock

variable (d : ScatterDims ⟨2, ![P, Q]⟩ ⟨1, ![1]⟩ ⟨2, ![R, Q]⟩)
    (h1 : d.updateWindowDims = [0, 1]) (h2 : d.insertedWindowDims = []) (h3 : d.scatterDimsToOperandDims = [0])
    (h4 : d.indexVectorDim = 0)

include h1 h2 h3 h4 in
/-- The start on the row axis is the one start index, read signed. -/
theorem start_rowBlock0 (j : (⟨2, ![R, Q]⟩ : Shape).Idx) (idx : IVec ⟨1, ![1]⟩ w) :
    d.start j idx 0 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The lane axis has no start index: its start is zero. -/
theorem start_rowBlock1 (j : (⟨2, ![R, Q]⟩ : Shape).Idx) (idx : IVec ⟨1, ![1]⟩ w) : d.start j idx 1 = 0 := by
  obtain ⟨uw, iw, sd, iv, wf⟩ := d
  subst h1 h2 h3 h4
  unfold ScatterDims.start
  rw [dif_neg]
  simp

include h1 h2 h3 h4 in
/-- Both axes are window axes: on the row axis the window coordinate is the update's row. -/
theorem window_rowBlock0 (j : (⟨2, ![R, Q]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- On the lane axis the window coordinate is the update's lane. -/
theorem window_rowBlock1 (j : (⟨2, ![R, Q]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
/-- Update `(r, q)` lands at `(p, q')` exactly when the start row, read signed, plus `r` is `p` and `q' = q`. -/
theorem resultIdx?_rowBlock (j : (⟨2, ![R, Q]⟩ : Shape).Idx) (idx : IVec ⟨1, ![1]⟩ w) (i : (⟨2, ![P, Q]⟩ : Shape).Idx) :
    d.resultIdx? j idx = some i ↔ (idx (ix1 0)).toInt + ((j 0).val : Int) = ((i 0).val : Int) ∧ (i 1).val = (j 1).val := by
  have hs0 := start_rowBlock0 d h1 h2 h3 h4 j idx
  have hs1 := start_rowBlock1 d h1 h2 h3 h4 j idx
  have hw0 := window_rowBlock0 d h1 h2 h3 h4 j
  have hw1 := window_rowBlock1 d h1 h2 h3 h4 j
  have hi0 : (i 0).val < P := (i 0).isLt
  have hi1 : (i 1).val < Q := (i 1).isLt
  have hj1 : (j 1).val < Q := (j 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      rw [hs0, hw0] at g0
      refine ⟨by omega, by omega⟩
    · exact absurd h (by simp)
  · rintro ⟨e0, e1⟩
    have hin : ∀ a, 0 ≤ d.start j idx a + ↑(d.window j a) ∧ d.start j idx a + ↑(d.window j a) < (⟨2, ![P, Q]⟩ : Shape).size a := by
      intro a
      match a with
      | ⟨0, _⟩ =>
        show 0 ≤ d.start j idx 0 + ↑(d.window j 0) ∧ d.start j idx 0 + ↑(d.window j 0) < ((P : Nat) : Int)
        rw [hs0, hw0, e0]; omega
      | ⟨1, _⟩ =>
        show 0 ≤ d.start j idx 1 + ↑(d.window j 1) ∧ d.start j idx 1 + ↑(d.window j 1) < ((Q : Nat) : Int)
        rw [hs1, hw1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1]; omega

end RowBlock

end Cert.LibScatter
-- ==== Proof.KernelSide.lean ====
/-
  The idealized kernel's result read at one row, in the common form.

  The kernel's result is `project sums wpad b`, where sums is the scatter-add, into zeros, of the packed rows at the
  segment indices and wpad is the 96 weights written at row 0 of a 128-row column of zeros.
  * Entry (k, l) of sums is the sum of lane l of the packed rows of segment k; at lane 96 every packed row holds one,
    so entry (k, 96) counts the segment.
  * Row l of wpad is weight l for l < 96 (exactly one update lands there) and the zero it started from for l ≥ 96
    (none does).
  So of the 128 terms of row k's sum the last 32 are (something) · 0 = 0 — whatever the something, since x · 0 = 0 on
  all the extended reals — and the first 96 are the reference's terms. Addition of extended reals is associative and
  commutative, so splitting the sum needs nothing about finiteness.
-/
import proofs.«116335_j82454782149367_2_alg».proof.KernelIdeal
import proofs.«116335_j82454782149367_2_alg».proof.Proof.Gen.KernelIdeal
import proofs.«116335_j82454782149367_2_alg».proof.Proof.Spec
import proofs.«116335_j82454782149367_2_alg».proof.Proof.SegmentMean
import proofs.«116335_j82454782149367_2_alg».proof.Proof.MaskedAux
import proofs.«116335_j82454782149367_2_alg».proof.Proof.LibScatter
import proofs.«116335_j82454782149367_2_alg».proof.Proof.LibScatterRows
import Idealize.ShloMosaic.Lib.Pipeline.Value
import Idealize.ShloMosaic.Lib.ValueIdx
import Idealize.ShloMosaic.PureOps.Ideal.Laws

noncomputable section

open scoped BigOperators

namespace Cert.KernelIdeal.KernelSide

open Cert.KernelIdeal Cert.KernelIdeal.Facts₀ Idealize.ShloMosaic Idealize.ShloMosaic.ValueIdx
open Cert.Decoder

/-- The per-segment sums as the kernel's program computes them on the host. -/
def sums (rows : FVec Ideal S1000000x128 .f32) (x5 : IVec S1000000 32) : FVec Ideal S500000x128 .f32 :=
  Host.scatterAdd scatter_S500000x128_S1000000x1_S1000000x128_1_0_0_1
    (broadcastInDim S500000x128 ![] bcast_S_S500000x128 (constant (F := Ideal) S_ .f32 0x00000000#32))
    (broadcastInDim S1000000x1 ![0] bcast_S1000000_S1000000x1_0 x5) rows

/-- The weights padded with zero rows as the kernel's program computes them on the host. -/
def wpad (x2 : FVec Ideal S96x1 .f32) : FVec Ideal S128x1 .f32 :=
  Host.scatter scatter_S128x1_S1_S96x1_01_n_0_0 (fun _ b => b)
    (broadcastInDim S128x1 ![] bcast_S_S128x1 (constant (F := Ideal) S_ .f32 0x00000000#32))
    (broadcastInDim S1 ![] bcast_S_S1 (constantI S_ 32 0#32)) x2

/-- The segment index of point n, spread to a one-column array, is the index of point n. -/
theorem seg_apply (x5 : IVec S1000000 32) (n : Fin 1000000) :
    broadcastInDim S1000000x1 ![0] bcast_S1000000_S1000000x1_0 x5 (ix2 n (0 : Fin 1)) = x5 (ix1 n) :=
  broadcastInDim_apply _ bcast_S1000000_S1000000x1_0 x5 (ix2 n (0 : Fin 1)) (ix1 n) (fun a => match a with
    | ⟨0, _⟩ => by show n.val = if (1000000 : Nat) = 1 then 0 else n.val; rw [if_neg (by decide)])

/-- Over the extended reals the host's accumulating scatter is the exact sum by definition: as a whole array (no
    index applied, so that nothing is evaluated) the sums are that sum. -/
theorem sums_eq (rows : FVec Ideal S1000000x128 .f32) (x5 : IVec S1000000 32) :
    sums rows x5 = Ideal.hostScatterAdd scatter_S500000x128_S1000000x1_S1000000x128_1_0_0_1
      (broadcastInDim S500000x128 ![] bcast_S_S500000x128 (constant (F := Ideal) S_ .f32 0x00000000#32))
      (broadcastInDim S1000000x1 ![0] bcast_S1000000_S1000000x1_0 x5) rows := rfl

/-- Entry (k, l) of the sums: the zero they start from plus lane l of the rows of segment k. -/
theorem sums_apply (rows : FVec Ideal S1000000x128 .f32) (x5 : IVec S1000000 32) (k : Fin 500000) (l : Fin 128) :
    sums rows x5 (ix2 k l) = segSum (fun n => (x5 (ix1 n)).toInt) (fun n => rows (ix2 n l)) k := by
  refine (congrFun (sums_eq rows x5) (ix2 k l)).trans ?_
  refine (Cert.LibScatter.hostScatterAdd_rows_apply scatter_S500000x128_S1000000x1_S1000000x128_1_0_0_1 rfl rfl rfl rfl
    _ _ rows k l).trans ?_
  unfold segSum
  refine congrArg₂ (· + ·) ?_ (Finset.sum_congr rfl fun n _ => ?_)
  · exact broadcastInDim_apply _ bcast_S_S500000x128 _ (ix2 k l) ix0 (fun a => a.elim0)
  · rw [seg_apply]

/-- Lane 96 of every packed row is one. -/
theorem packed_count (feats : FVec Ideal S1000000x64 .f32) (aux : FVec Ideal S1000000x32 .f32) (n : Fin 1000000) :
    packed feats aux (ix2 n (96 : Fin 128)) = one := by
  unfold packed
  have h96 : ((ix2 n (96 : Fin 128) : S1000000x128.Idx) 1).val = 96 := rfl
  rw [dif_neg (by rw [h96]; omega), dif_neg (by rw [h96]; omega), if_pos h96]

/-- The one start index of the weights' block is zero. -/
theorem wstart : (broadcastInDim S1 ![] bcast_S_S1 (constantI S_ 32 0#32) (ix1 (0 : Fin 1))).toInt = 0 := by
  rw [broadcastInDim_apply _ bcast_S_S1 _ (ix1 (0 : Fin 1)) ix0 (fun a => a.elim0)]
  rfl

/-- Row l < 96 of the padded weights is weight l. -/
theorem wpad_real (x2 : FVec Ideal S96x1 .f32) (l : Fin 96) :
    wpad x2 (ix2 (Fin.castAdd 32 l) (0 : Fin 1)) = x2 (ix2 l (0 : Fin 1)) := by
  unfold wpad
  refine Cert.LibScatter.scatter_set_of_unique scatter_S128x1_S1_S96x1_01_n_0_0 _ _ x2
    (ix2 (Fin.castAdd 32 l) (0 : Fin 1)) (ix2 l (0 : Fin 1)) ?_ ?_
  · rw [Cert.LibScatter.resultIdx?_rowBlock scatter_S128x1_S1_S96x1_01_n_0_0 rfl rfl rfl rfl, wstart]
    exact ⟨by show (0 : Int) + ((l.val : Nat) : Int) = ((l.val : Nat) : Int); omega, rfl⟩
  · intro j hj
    rw [Cert.LibScatter.resultIdx?_rowBlock scatter_S128x1_S1_S96x1_01_n_0_0 rfl rfl rfl rfl, wstart] at hj
    obtain ⟨h0, h1⟩ := hj
    have e0 : (j 0).val = l.val := by
      have : (0 : Int) + ((j 0).val : Int) = ((l.val : Nat) : Int) := h0
      omega
    rw [eq_ix2 j]
    have e1 : (j 1).val = 0 := by have := (j 1).isLt; have h : (j 1).val < 1 := this; omega
    exact congrArg₂ ix2 (Fin.ext e0) (Fin.ext e1)

/-- Row l ≥ 96 of the padded weights is the zero it started from. -/
theorem wpad_pad (x2 : FVec Ideal S96x1 .f32) (j : Fin 32) :
    wpad x2 (ix2 (Fin.natAdd 96 j) (0 : Fin 1)) = 0 := by
  unfold wpad
  rw [Cert.LibScatter.scatter_of_none]
  · rw [broadcastInDim_apply _ bcast_S_S128x1 _ (ix2 (Fin.natAdd 96 j) (0 : Fin 1)) ix0 (fun a => a.elim0)]
    exact Ideal.ofBits_zero_f32
  · intro u hu
    rw [Cert.LibScatter.resultIdx?_rowBlock scatter_S128x1_S1_S96x1_01_n_0_0 rfl rfl rfl rfl, wstart] at hu
    have h0 : (0 : Int) + ((u 0).val : Int) = (((96 + j.val : Nat)) : Int) := hu.1
    have hu0 : (u 0).val < 96 := (u 0).isLt
    omega

/-- A sum over 128 lanes is the sum over the first 96 plus the sum over the last 32. -/
theorem sum_split (f : Fin 128 → EReal) :
    ∑ l, f l = ∑ l : Fin 96, f (Fin.castAdd 32 l) + ∑ j : Fin 32, f (Fin.natAdd 96 j) :=
  Fin.sum_univ_add (a := 96) (b := 32) f

/-- Row k of the kernel's result, in the common form. -/
theorem ker_apply (x0 : FVec Ideal S1000000x64 .f32) (x1 : FVec Ideal S600000x32 .f32) (x2 : FVec Ideal S96x1 .f32)
    (x3 : FVec Ideal S1 .f32) (x4 x5 : IVec S1000000 32) (k : Fin 500000) :
    project (sums (packed x0 (Cert.Masked.aux x1 x4)) x5) (wpad x2) x3 (ix2 k (0 : Fin 1))
      = segMeanProject (fun n => (x5 (ix1 n)).toInt) (realLane x0 (Cert.Masked.aux x1 x4)) x2 x3 k := by
  unfold project segMeanProject
  refine congrArg (· + x3 (ix1 (0 : Fin 1))) ?_
  have hk : (⟨((ix2 k (0 : Fin 1) : S500000x1.Idx) 0).val, idx2_lt0 _⟩ : Fin 500000) = k := Fin.ext rfl
  rw [hk, sum_split]
  have hpad : ∑ j : Fin 32,
      Ideal.div (sums (packed x0 (Cert.Masked.aux x1 x4)) x5 (ix2 k (Fin.natAdd 96 j)))
          (max (sums (packed x0 (Cert.Masked.aux x1 x4)) x5 (ix2 k (96 : Fin 128))) one)
        * wpad x2 (ix2 (Fin.natAdd 96 j) (0 : Fin 1)) = 0 :=
    Finset.sum_eq_zero fun j _ => by rw [wpad_pad, mul_zero]
  rw [hpad, add_zero]
  refine Finset.sum_congr rfl fun l _ => ?_
  rw [wpad_real, sums_apply, sums_apply]
  have hc : (fun n => packed x0 (Cert.Masked.aux x1 x4) (ix2 n (96 : Fin 128))) = fun _ => one :=
    funext fun n => packed_count _ _ n
  rw [hc]
  rfl

end Cert.KernelIdeal.KernelSide

end
-- ==== Proof.KernelValue.lean ====
/-
  The idealized kernel's run with its result in the common form.

  The result buffer ends holding what the second call leaves: `project` of the buffers it reads. Those are the
  scatter-add of the first call's output — `packed` of the features and the masked auxiliary features — at the segment
  indices, the padded weights, and the bias. Read row by row that is the projected segment mean (`KernelSide`).
-/
import proofs.«116335_j82454782149367_2_alg».proof.Proof.KernelRun
import proofs.«116335_j82454782149367_2_alg».proof.Proof.HostValues
import proofs.«116335_j82454782149367_2_alg».proof.Proof.PackedRows
import proofs.«116335_j82454782149367_2_alg».proof.Proof.ProjectedRows
import proofs.«116335_j82454782149367_2_alg».proof.Proof.KernelSide

noncomputable section

namespace Cert.KernelIdeal.Result

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The segment of point n: the sixth argument's word, read signed. -/
abbrev seg (x5 : IVec S1000000 32) : Fin 1000000 → Int := fun n => (x5 (ix1 n)).toInt

/-- What the second call leaves in the result array, as `project` of the host-computed sums and padded weights. -/
theorem result_array (c : Dev nD) :
    (dat1 (V6 m ρ) c).arrAt 3 cfg1.N
      = Cert.Decoder.project
          (KernelSide.sums (Cert.Decoder.packed (m ((c : Thread nD τ).loc main_arg0))
              (Cert.Masked.aux (m ((c : Thread nD τ).loc main_arg1)) (m ((c : Thread nD τ).loc main_arg4))))
            (m ((c : Thread nD τ).loc main_arg5)))
          (KernelSide.wpad (m ((c : Thread nD τ).loc main_arg2))) (m ((c : Thread nD τ).loc main_arg3)) := by
  rw [ProjectedRows.projected_array (V6 m ρ) c, HostValues.entry1_sums, HostValues.entry1_weights,
    HostValues.entry1_bias, PackedRows.packed_array (V4 m ρ) c, HostValues.entry0_arg0, HostValues.entry0_aux]
  rfl

/-- The same array, row by row, is the projected segment mean. -/
theorem result_common (c : Dev nD) :
    (dat1 (V6 m ρ) c).arrAt 3 cfg1.N
      = Cert.Decoder.result (m ((c : Thread nD τ).loc main_arg0))
          (Cert.Masked.aux (m ((c : Thread nD τ).loc main_arg1)) (m ((c : Thread nD τ).loc main_arg4)))
          (m ((c : Thread nD τ).loc main_arg2)) (m ((c : Thread nD τ).loc main_arg3))
          (seg (m ((c : Thread nD τ).loc main_arg5))) := by
  rw [result_array]
  funext i
  rw [Cert.Decoder.col_idx i, Cert.Decoder.result_apply]
  exact KernelSide.ker_apply _ _ _ _ _ _ _

/-- Every weakly fair execution of the idealized kernel terminates with the result buffer at the projected segment
    means of the arguments, and the arguments as launched. -/
theorem run : θ_run defs (onTc (τ := τ) (main (F := Ideal))) ⟨m, fun _ => 0, ρ⟩ (fun r => ∀ c : Dev nD,
      r.2.mem ((c.tc : Thread nD τ).loc main_v19)
        = Cert.Decoder.result (m ((c : Thread nD τ).loc main_arg0))
            (Cert.Masked.aux (m ((c : Thread nD τ).loc main_arg1)) (m ((c : Thread nD τ).loc main_arg4)))
            (m ((c : Thread nD τ).loc main_arg2)) (m ((c : Thread nD τ).loc main_arg3))
            (seg (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_common m ρ c), (h c).2⟩) (Cert.KernelIdeal.Run.run m ρ)

end Cert.KernelIdeal.Result

end
-- ==== Proof.LibScatterShapes.lean ====
/-
  The landing index of an update for two scatter layouts, in closed form.

  * One scatter axis into a vector (`resultIdx?_vec`): the operand is a vector of length `N`, each of the `M` scalar
    updates carries one start index; update `j` lands at `i` exactly when its start index, read as a signed integer, is
    `i` — a start index outside `[0, N)` lands nowhere.
  * A pair of start indices selecting a (row, column) cell per batch row (`resultIdx?_cells`): the operand is
    `B × R × C`, the updates are `B × K`, and update `(b, k)` lands at `(b, r, c)` exactly when the `k`-th pair of start
    indices is `(r, c)`.
-/
import Idealize.ShloMosaic.PureOps.ShapeOps
import Idealize.ShloMosaic.PureOps.Dims
import Idealize.ShloMosaic.Lib.ValueIdx

namespace Cert.LibScatter

open Idealize.ShloMosaic Idealize.ShloMosaic.ValueIdx

variable {N M B R C K w : Nat}

section Vec

variable (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)

include h1 h2 h3 h4 in
/-- The start of update `j` on the vector's one axis is its start index, read signed. -/
theorem start_vec (j : (⟨1, ![M]⟩ : Shape).Idx) (idx : IVec ⟨2, ![M, 1]⟩ w) :
    d.start j idx 0 = (idx (ix2 (j 0) 0)).toInt := by
  obtain ⟨uw, iw, sd, iv, wf⟩ := d
  subst h1 h2 h3 h4
  unfold ScatterDims.start
  simp only [List.mem_singleton, dite_true]
  congr 1
  congr 1
  funext b
  unfold ScatterDims.siIdx
  match b with
  | ⟨0, _⟩ => simp; rfl
  | ⟨1, _⟩ => simp; rfl

include h1 h2 h3 h4 in
/-- The vector's axis is an inserted one: the window coordinate is zero. -/
theorem window_vec (j : (⟨1, ![M]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- Update `j` lands at `i` exactly when its start index, read signed, is `i`. -/
theorem resultIdx?_vec (j : (⟨1, ![M]⟩ : Shape).Idx) (idx : IVec ⟨2, ![M, 1]⟩ w) (i : (⟨1, ![N]⟩ : Shape).Idx) :
    d.resultIdx? j idx = some i ↔ (idx (ix2 (j 0) 0)).toInt = ((i 0).val : Int) := by
  have hs := start_vec d h1 h2 h3 h4 j idx
  have hw := window_vec d h1 h2 h3 h4 j
  have hi : (i 0).val < N := (i 0).isLt
  unfold ScatterDims.resultIdx?
  constructor
  · intro h
    split at h
    · rename_i hin
      have := congrFun (Option.some.inj h) 0
      have hv := congrArg Fin.val this
      simp only [hs, hw] at hv
      have h0 := (hin 0).1
      rw [hs, hw] at h0
      omega
    · exact absurd h (by simp)
  · intro h
    have hin : ∀ a, 0 ≤ d.start j idx a + ↑(d.window j a) ∧ d.start j idx a + ↑(d.window j a) < (⟨1, ![N]⟩ : Shape).size a := by
      intro a
      have : a = 0 := Subsingleton.elim _ _
      subst this
      rw [hs, hw, h]
      constructor
      · omega
      · show ((i 0).val : Int) + ((0 : Nat) : Int) < ((N : Nat) : Int)
        omega
    rw [dif_pos hin]
    congr 1
    funext a
    have : a = 0 := Subsingleton.elim _ _
    subst this
    apply Fin.ext
    simp only [hs, hw, h]
    omega

end Vec

section Cells

variable (d : ScatterDims ⟨3, ![B, R, C]⟩ ⟨2, ![K, 2]⟩ ⟨2, ![B, K]⟩)
    (h1 : d.updateWindowDims = [0]) (h2 : d.insertedWindowDims = [1, 2]) (h3 : d.scatterDimsToOperandDims = [1, 2])
    (h4 : d.indexVectorDim = 1)

include h1 h2 h3 h4 in
/-- The batch axis has no start index: its start is zero. -/
theorem start_cells0 (j : (⟨2, ![B, K]⟩ : Shape).Idx) (idx : IVec ⟨2, ![K, 2]⟩ w) : d.start j idx 0 = 0 := by
  obtain ⟨uw, iw, sd, iv, wf⟩ := d
  subst h1 h2 h3 h4
  unfold ScatterDims.start
  rw [dif_neg]
  simp

include h1 h2 h3 h4 in
/-- The row's start is the first component of the update's pair of start indices, read signed. -/
theorem start_cells1 (j : (⟨2, ![B, K]⟩ : Shape).Idx) (idx : IVec ⟨2, ![K, 2]⟩ w) :
    d.start j idx 1 = (idx (ix2 (j 1) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The column's start is the second component of the update's pair of start indices, read signed. -/
theorem start_cells2 (j : (⟨2, ![B, K]⟩ : Shape).Idx) (idx : IVec ⟨2, ![K, 2]⟩ w) :
    d.start j idx 2 = (idx (ix2 (j 1) 1)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The batch axis is the window axis: the window coordinate is the update's batch coordinate. -/
theorem window_cells0 (j : (⟨2, ![B, K]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- Rows and columns are inserted axes: their window coordinate is zero. -/
theorem window_cells1 (j : (⟨2, ![B, K]⟩ : Shape).Idx) : d.window j 1 = 0 := by
  obtain ⟨uw, iw, sd, iv, wf⟩ := d
  subst h1 h2 h3 h4
  unfold ScatterDims.window
  rw [dif_neg]
  simp [ScatterDims.sKept, Shape.kept]

include h1 h2 h3 h4 in
theorem window_cells2 (j : (⟨2, ![B, K]⟩ : Shape).Idx) : d.window j 2 = 0 := by
  obtain ⟨uw, iw, sd, iv, wf⟩ := d
  subst h1 h2 h3 h4
  unfold ScatterDims.window
  rw [dif_neg]
  simp [ScatterDims.sKept, Shape.kept]

include h1 h2 h3 h4 in
/-- Update `(b, k)` lands at `(b', r, c)` exactly when `b' = b` and the `k`-th pair of start indices, read signed, is
    `(r, c)`. -/
theorem resultIdx?_cells (j : (⟨2, ![B, K]⟩ : Shape).Idx) (idx : IVec ⟨2, ![K, 2]⟩ w) (i : (⟨3, ![B, R, C]⟩ : Shape).Idx) :
    d.resultIdx? j idx = some i ↔
      (i 0).val = (j 0).val ∧ (idx (ix2 (j 1) 0)).toInt = ((i 1).val : Int) ∧ (idx (ix2 (j 1) 1)).toInt = ((i 2).val : Int) := by
  have hs0 := start_cells0 d h1 h2 h3 h4 j idx
  have hs1 := start_cells1 d h1 h2 h3 h4 j idx
  have hs2 := start_cells2 d h1 h2 h3 h4 j idx
  have hw0 := window_cells0 d h1 h2 h3 h4 j
  have hw1 := window_cells1 d h1 h2 h3 h4 j
  have hw2 := window_cells2 d h1 h2 h3 h4 j
  have hi0 : (i 0).val < B := (i 0).isLt
  have hi1 : (i 1).val < R := (i 1).isLt
  have hi2 : (i 2).val < C := (i 2).isLt
  have hj0 : (j 0).val < B := (j 0).isLt
  unfold ScatterDims.resultIdx?
  constructor
  · intro h
    split at h
    · rename_i hin
      have e := Option.some.inj h
      have e0 := congrArg Fin.val (congrFun e 0)
      have e1 := congrArg Fin.val (congrFun e 1)
      have e2 := congrArg Fin.val (congrFun e 2)
      simp only [hs0, hw0, hs1, hw1, hs2, hw2] at e0 e1 e2
      have g1 := (hin 1).1
      have g2 := (hin 2).1
      rw [hs1, hw1] at g1
      rw [hs2, hw2] at g2
      refine ⟨by omega, by omega, by omega⟩
    · exact absurd h (by simp)
  · rintro ⟨e0, e1, e2⟩
    have hin : ∀ a, 0 ≤ d.start j idx a + ↑(d.window j a) ∧ d.start j idx a + ↑(d.window j a) < (⟨3, ![B, R, C]⟩ : Shape).size a := by
      intro a
      match a with
      | ⟨0, _⟩ =>
        show 0 ≤ d.start j idx 0 + ↑(d.window j 0) ∧ d.start j idx 0 + ↑(d.window j 0) < ((B : Nat) : Int)
        rw [hs0, hw0]; omega
      | ⟨1, _⟩ =>
        show 0 ≤ d.start j idx 1 + ↑(d.window j 1) ∧ d.start j idx 1 + ↑(d.window j 1) < ((R : Nat) : Int)
        rw [hs1, hw1, e1]; omega
      | ⟨2, _⟩ =>
        show 0 ≤ d.start j idx 2 + ↑(d.window j 2) ∧ d.start j idx 2 + ↑(d.window j 2) < ((C : Nat) : Int)
        rw [hs2, hw2, e2]; omega
    rw [dif_pos hin]
    congr 1
    funext a
    apply Fin.ext
    match a with
    | ⟨0, _⟩ =>
      show (d.start j idx 0 + ↑(d.window j 0)).toNat = (i 0).val
      rw [hs0, hw0]; omega
    | ⟨1, _⟩ =>
      show (d.start j idx 1 + ↑(d.window j 1)).toNat = (i 1).val
      rw [hs1, hw1, e1]; omega
    | ⟨2, _⟩ =>
      show (d.start j idx 2 + ↑(d.window j 2)).toNat = (i 2).val
      rw [hs2, hw2, e2]; omega

end Cells

end Cert.LibScatter
-- ==== Proof.LibScatterSums.lean ====
/-
  The host's accumulating scatter of M scalars into a vector of length N, read at one entry.

  Over the extended reals the accumulating scatter holds, at every operand index, the operand's element plus the sum
  of the updates that land there. With one start index per update and the vector's one axis inserted, update n lands
  at k exactly when its start index, read signed, is k; so entry k is the operand's entry plus the sum over all n of
  "update n if index n is k, else nothing" — a start index outside [0, N) contributes to no entry.
-/
import Idealize.ShloMosaic.PureOps.Ideal
import Idealize.ShloMosaic.Lib.ValueIdx
import proofs.«116335_j82454782149367_2_alg».proof.Proof.LibScatterShapes

noncomputable section

open scoped BigOperators

namespace Cert.LibScatter

open Idealize.ShloMosaic Idealize.ShloMosaic.ValueIdx

variable {N M w : Nat}

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum over the indices of a vector is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Entry k of the accumulating scatter of M scalars into a vector: the operand's entry plus the updates whose
    start index is k. -/
theorem hostScatterAdd_vec_apply (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![M, 1]⟩ w) (upd : (⟨1, ![M]⟩ : Shape).Idx → EReal)
    (k : Fin N) :
    Ideal.hostScatterAdd d x idx upd (ix1 k)
      = x (ix1 k) + ∑ n : Fin M, if (idx (ix2 n 0)).toInt = (k.val : Int) then upd (ix1 n) else 0 := by
  unfold Ideal.hostScatterAdd
  refine congrArg (x (ix1 k) + ·) ?_
  rw [Finset.sum_filter, sum_idx1]
  refine Finset.sum_congr rfl fun n _ => ?_
  exact if_congr (resultIdx?_vec d h1 h2 h3 h4 (ix1 n) idx (ix1 k)) rfl rfl

end Cert.LibScatter

end
-- ==== Proof.RefSide.lean ====
import proofs.«116335_j82454782149367_2_alg».proof.Proof.RefRead
import proofs.«116335_j82454782149367_2_alg».proof.Proof.Spec
import proofs.«116335_j82454782149367_2_alg».proof.Proof.SegmentMean
import proofs.«116335_j82454782149367_2_alg».proof.Proof.MaskedAux
import proofs.«116335_j82454782149367_2_alg».proof.Proof.LibScatterRows
import proofs.«116335_j82454782149367_2_alg».proof.Proof.LibScatterSums
import Idealize.ShloMosaic.Lib.Pipeline.Value
import Idealize.ShloMosaic.Lib.ValueIdx
import Idealize.ShloMosaic.PureOps.Ideal.Laws

noncomputable section

open scoped BigOperators

/-!
  The reference program read at one result index, in the common form both programs are compared in.

  The reference computes, for every segment k, the sums over the segment's points of the 96 real lanes (64 features,
  then 32 masked auxiliary features) and the number of its points, by two accumulating scatters that start from
  zero; divides every lane's sum by the count, at least one; multiplies by the 96 weights, adds up, and adds the
  bias. Over the extended reals an accumulating scatter, read at an entry, is the entry it starts from plus the sum
  of the updates whose start index is that entry; a concatenation, read at an index, is the piece whose span holds
  the lane. Chaining these readings, outermost operation first, row k of the result is the projected segment mean of
  the packed rows' 96 real lanes.
-/

namespace Cert.ReferenceIdeal.RefSide

open Cert.ReferenceIdeal Cert.ReferenceIdeal.Gen Cert.ReferenceIdeal.ReadP Idealize.ShloMosaic Idealize.ShloMosaic.ValueIdx

/-! ## The masked auxiliary features -/

/-- The reference's masked auxiliary features are the array both programs compute: the same operations, in the
    same order, on the same two arguments. -/
theorem aux_eq (x1 : (⟨S600000x32, .f32⟩ : BufTy).Contents (Elt Ideal)) (x4 : (⟨S1000000, .i32⟩ : BufTy).Contents (Elt Ideal)) :
    val_main_v11 (F := Ideal) x1 x4 = Cert.Masked.aux x1 x4 := rfl

/-! ## Small readings: constants and the segment index -/

/-- Over the extended reals the host's accumulating scatter is the exact sum (stated over any shapes, so that
    the definitional unfolding never meets a concrete index set). -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The count's scatter starts from zero. -/
theorem zero17 (k : Fin 500000) : val_main_v17 (F := Ideal) (ix1 k) = Cert.Decoder.zero := by
  rw [val_main_v17_apply, val_main_cst_6_apply]; rfl

/-- The count's updates are ones. -/
theorem ones16 (n : Fin 1000000) : val_main_v16 (F := Ideal) (ix1 n) = Cert.Decoder.one := by
  rw [val_main_v16_apply, val_main_cst_5_apply]; rfl

/-- The count's start index of point n is its segment. -/
theorem seg18 (x5 : (⟨S1000000, .i32⟩ : BufTy).Contents (Elt Ideal)) (n : Fin 1000000) :
    val_main_v18 (F := Ideal) x5 (ix2 n (0 : Fin 1)) = x5 (ix1 n) := by
  rw [val_main_v18_apply]
  exact congrArg x5 (funext fun a => by match a with | ⟨0, _⟩ => rfl)

/-- The sums' scatter starts from zero. -/
theorem zero13 (k : Fin 500000) (l : Fin 96) : val_main_v13 (F := Ideal) (ix2 k l) = Cert.Decoder.zero := by
  rw [val_main_v13_apply, val_main_cst_4_apply]; rfl

/-- The sums' start index of point n is its segment. -/
theorem seg14 (x5 : (⟨S1000000, .i32⟩ : BufTy).Contents (Elt Ideal)) (n : Fin 1000000) :
    val_main_v14 (F := Ideal) x5 (ix2 n (0 : Fin 1)) = x5 (ix1 n) := by
  rw [val_main_v14_apply]
  exact congrArg x5 (funext fun a => by match a with | ⟨0, _⟩ => rfl)

/-- The lower bound of the divisor is one. -/
theorem one20 (k : Fin 500000) : val_main_v20 (F := Ideal) (ix1 k) = Cert.Decoder.one := by
  rw [val_main_v20_apply, val_main_cst_7_apply]; rfl

/-! ## The two scatters, read at an index -/

/-- The per-segment count: entry k of the scatter of ones is the zero it starts from plus a one for every point
    of segment k. -/
theorem count_apply (x5 : (⟨S1000000, .i32⟩ : BufTy).Contents (Elt Ideal)) (k : Fin 500000) :
    val_main_v19 (F := Ideal) x5 (ix1 k)
      = Cert.Decoder.segSum (fun n => (x5 (ix1 n)).toInt) (fun _ => Cert.Decoder.one) k := by
  unfold val_main_v19
  rw [scatterAdd_ideal,
    Cert.LibScatter.hostScatterAdd_vec_apply scatter_S500000_S1000000x1_S1000000_n_0_0_1 rfl rfl rfl rfl, zero17]
  unfold Cert.Decoder.segSum
  simp only [seg18, ones16]

/-! ## The concatenated rows -/
/-- Lanes 0..63 of a concatenated row are the features. -/
theorem row_feat (x0 : (⟨S1000000x64, .f32⟩ : BufTy).Contents (Elt Ideal)) (y : (⟨S1000000x32, .f32⟩ : BufTy).Contents (Elt Ideal))
    (n : Fin 1000000) (l : Fin 96) (h : l.val < 64) :
    concatenate S1000000x96 1 [⟨S1000000x64, x0⟩, ⟨S1000000x32, y⟩] concatenates_S1000000x64_S1000000x32_S1000000x96_d1 (ix2 n l)
      = x0 (ix2 n (⟨l.val, h⟩ : Fin 64)) := by
  refine concatenate_apply_piece (1 : Fin 2) [⟨S1000000x64, x0⟩, ⟨S1000000x32, y⟩] _ (ix2 n l) 0 (by show (0 : Nat) < 2; omega)
    S1000000x64 x0 rfl rfl 0 rfl (ix2 n (⟨l.val, h⟩ : Fin 64)) ?_ ?_
  · intro b hb
    match b with
    | ⟨0, _⟩ => rfl
    | ⟨1, _⟩ => exact absurd rfl hb
  · show 0 + l.val = l.val
    omega

/-- Lanes 64..95 of a concatenated row are the auxiliary features. -/
theorem row_aux (x0 : (⟨S1000000x64, .f32⟩ : BufTy).Contents (Elt Ideal)) (y : (⟨S1000000x32, .f32⟩ : BufTy).Contents (Elt Ideal))
    (n : Fin 1000000) (l : Fin 96) (h : 64 ≤ l.val) :
    concatenate S1000000x96 1 [⟨S1000000x64, x0⟩, ⟨S1000000x32, y⟩] concatenates_S1000000x64_S1000000x32_S1000000x96_d1 (ix2 n l)
      = y (ix2 n (⟨l.val - 64, by omega⟩ : Fin 32)) := by
  refine concatenate_apply_piece (1 : Fin 2) [⟨S1000000x64, x0⟩, ⟨S1000000x32, y⟩] _ (ix2 n l) 1 (by show (1 : Nat) < 2; omega)
    S1000000x32 y rfl rfl 64 rfl (ix2 n (⟨l.val - 64, by omega⟩ : Fin 32)) ?_ ?_
  · intro b hb
    match b with
    | ⟨0, _⟩ => rfl
    | ⟨1, _⟩ => exact absurd rfl hb
  · show 64 + (l.val - 64) = l.val
    omega

/-- Row n of the concatenated array, at a lane below 96, is that lane of point n's packed row. -/
theorem row_apply (x0 : (⟨S1000000x64, .f32⟩ : BufTy).Contents (Elt Ideal)) (x1 : (⟨S600000x32, .f32⟩ : BufTy).Contents (Elt Ideal))
    (x4 : (⟨S1000000, .i32⟩ : BufTy).Contents (Elt Ideal)) (n : Fin 1000000) (l : Fin 96) :
    val_main_v12 (F := Ideal) x0 x1 x4 (ix2 n l) = Cert.Decoder.realLane x0 (Cert.Masked.aux x1 x4) n l := by
  unfold val_main_v12
  rw [aux_eq]
  unfold Cert.Decoder.realLane Cert.Decoder.packed
  by_cases c0 : l.val < 64
  · rw [row_feat x0 _ n l c0, dif_pos (show ((ix2 n (Fin.castAdd 32 l)) 1).val < 64 from c0)]
    exact congrArg x0 rfl
  · have c1 : ((ix2 n (Fin.castAdd 32 l)) 1).val < 96 := l.isLt
    rw [row_aux x0 _ n l (by omega), dif_neg (show ¬ ((ix2 n (Fin.castAdd 32 l)) 1).val < 64 from c0), dif_pos c1]
    exact congrArg (Cert.Masked.aux x1 x4) rfl

/-- The per-segment sums: element (k, l) of the scatter of the rows is the zero it starts from plus lane l of every
    point of segment k. -/
theorem sums_apply (x0 : (⟨S1000000x64, .f32⟩ : BufTy).Contents (Elt Ideal)) (x1 : (⟨S600000x32, .f32⟩ : BufTy).Contents (Elt Ideal))
    (x4 x5 : (⟨S1000000, .i32⟩ : BufTy).Contents (Elt Ideal)) (k : Fin 500000) (l : Fin 96) :
    val_main_v15 (F := Ideal) x0 x1 x4 x5 (ix2 k l)
      = Cert.Decoder.segSum (fun n => (x5 (ix1 n)).toInt)
          (fun n => Cert.Decoder.realLane x0 (Cert.Masked.aux x1 x4) n l) k := by
  unfold val_main_v15
  rw [scatterAdd_ideal,
    Cert.LibScatter.hostScatterAdd_rows_apply scatter_S500000x96_S1000000x1_S1000000x96_1_0_0_1 rfl rfl rfl rfl, zero13]
  unfold Cert.Decoder.segSum
  simp only [seg14, row_apply]

/-! ## The result at an index -/

/-- The divisor: the per-segment count, at least one, the same on every lane. -/
theorem denom_apply (x5 : (⟨S1000000, .i32⟩ : BufTy).Contents (Elt Ideal)) (k : Fin 500000) (l : Fin 96) :
    val_main_v23 (F := Ideal) x5 (ix2 k l)
      = max (Cert.Decoder.segSum (fun n => (x5 (ix1 n)).toInt) (fun _ => Cert.Decoder.one) k) Cert.Decoder.one := by
  rw [val_main_v23_apply, val_main_v22_apply, val_main_v21_apply, Ideal.maximumf_def]
  have e : idx_main_v22 (idx_main_v23 (ix2 k l)) = ix1 k := funext fun a => by match a with | ⟨0, _⟩ => rfl
  rw [e, count_apply]
  rw [one20]

/-- Row k of the reference's result is the projected segment mean of the packed rows' 96 real lanes. -/
theorem ref_apply (x0 : (⟨S1000000x64, .f32⟩ : BufTy).Contents (Elt Ideal)) (x1 : (⟨S600000x32, .f32⟩ : BufTy).Contents (Elt Ideal))
    (x2 : (⟨S96x1, .f32⟩ : BufTy).Contents (Elt Ideal)) (x3 : (⟨S1, .f32⟩ : BufTy).Contents (Elt Ideal))
    (x4 x5 : (⟨S1000000, .i32⟩ : BufTy).Contents (Elt Ideal)) (k : Fin 500000) :
    val_main_v28 (F := Ideal) x0 x1 x2 x3 x4 x5 (ix2 k (0 : Fin 1))
      = Cert.Decoder.segMeanProject (fun n => (x5 (ix1 n)).toInt) (Cert.Decoder.realLane x0 (Cert.Masked.aux x1 x4)) x2 x3 k := by
  rw [val_main_v28_apply, val_main_v25_apply, Ideal.addf_def]
  unfold Cert.Decoder.segMeanProject
  have hb : val_main_v27 (F := Ideal) x3 (ix2 k (0 : Fin 1)) = x3 (ix1 (0 : Fin 1)) := by
    rw [val_main_v27_apply, val_main_v26_apply]
    exact congrArg x3 (funext fun a => by match a with | ⟨0, _⟩ => rfl)
  rw [hb]
  refine congrArg (· + x3 (ix1 (0 : Fin 1))) (Finset.sum_congr rfl fun l _ => ?_)
  have el : lidx_main_v25 (ix2 k (0 : Fin 1)) l = ix2 k l :=
    funext fun a => Fin.ext (by match a with | ⟨0, _⟩ => rfl | ⟨1, _⟩ => rfl)
  have er : ridx_main_v25 (ix2 k (0 : Fin 1)) l = ix2 l (0 : Fin 1) :=
    funext fun a => Fin.ext (by match a with | ⟨0, _⟩ => rfl | ⟨1, _⟩ => rfl)
  rw [el, er, val_main_v24_apply, Ideal.hostDivf_def, sums_apply, denom_apply]

end Cert.ReferenceIdeal.RefSide

end
-- ==== Proof.lean ====
/-
  The certificate of the sparse-voxel decoder: the Pallas kernel against its jnp reference, over the extended reals.

  Both programs first build the masked auxiliary features on the host (the same twenty-five operations), then
    * the reference concatenates the 64 features and the 32 auxiliary features of every point, sums the rows of each
      of the 500000 segments (a scatter-add) and counts them (a second scatter-add of ones), divides by
      max(count, 1), multiplies by the 96 × 1 weights and adds the bias;
    * the kernel packs [features | auxiliary | 1 | 31 zeros] into 128 lanes in a first pallas call, sums the rows of
      each segment with ONE scatter-add — lane 96 then holds the count —, pads the weights with 32 zero rows, and in a
      second pallas call divides every lane by max(lane 96, 1), multiplies by the padded weights and adds the bias.
  Row k of both results is the projected segment mean
      Σ over the 96 real lanes l of (sum(k, l) / max(count(k), 1)) · w(l) + b :
  the kernel's 32 extra terms are each (something) · 0 = 0, which holds for every extended real, and regrouping a
  finite sum of extended reals is free, so the equality needs no finiteness of the inputs. The changes of float
  format on the way to the matrix unit are the identity over the extended reals.

  The three frames are the generated ones (the reference's is its run with the result dropped); the ideal pass
  rewrote nothing, so the kernel's idealization is its own text.
-/
import proofs.«116335_j82454782149367_2_alg».proof.Defs
import proofs.«116335_j82454782149367_2_alg».proof.Proof.Gen.Kernel
import proofs.«116335_j82454782149367_2_alg».proof.Proof.Gen.Kernel.Skeleton
import proofs.«116335_j82454782149367_2_alg».proof.Proof.Gen.Kernel.Launch
import proofs.«116335_j82454782149367_2_alg».proof.Proof.Gen.Kernel.Points
import proofs.«116335_j82454782149367_2_alg».proof.Proof.Gen.Kernel.Frame
import proofs.«116335_j82454782149367_2_alg».proof.Proof.Gen.KernelIdeal
import proofs.«116335_j82454782149367_2_alg».proof.Proof.Gen.KernelIdeal.Skeleton
import proofs.«116335_j82454782149367_2_alg».proof.Proof.Gen.KernelIdeal.Launch
import proofs.«116335_j82454782149367_2_alg».proof.Proof.Gen.KernelIdeal.Points
import proofs.«116335_j82454782149367_2_alg».proof.Proof.Gen.KernelIdeal.Frame
import proofs.«116335_j82454782149367_2_alg».proof.Proof.Gen.ReferenceIdeal
import proofs.«116335_j82454782149367_2_alg».proof.Proof.Gen.Pre_finite_inputs
import proofs.«116335_j82454782149367_2_alg».proof.Proof.KernelValue
import proofs.«116335_j82454782149367_2_alg».proof.Proof.RefRun
import proofs.«116335_j82454782149367_2_alg».proof.Proof.RefRead
import proofs.«116335_j82454782149367_2_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result array, row by row, is the projected segment mean. -/
theorem reference_common (x0 : (⟨Cert.ReferenceIdeal.S1000000x64, .f32⟩ : BufTy).Contents (Elt Ideal))
    (x1 : (⟨Cert.ReferenceIdeal.S600000x32, .f32⟩ : BufTy).Contents (Elt Ideal))
    (x2 : (⟨Cert.ReferenceIdeal.S96x1, .f32⟩ : BufTy).Contents (Elt Ideal))
    (x3 : (⟨Cert.ReferenceIdeal.S1, .f32⟩ : BufTy).Contents (Elt Ideal))
    (x4 x5 : (⟨Cert.ReferenceIdeal.S1000000, .i32⟩ : BufTy).Contents (Elt Ideal)) :
    Cert.ReferenceIdeal.ReadP.val_main_v28 (F := Ideal) x0 x1 x2 x3 x4 x5
      = Cert.Decoder.result x0 (Cert.Masked.aux x1 x4) x2 x3 (fun n => (x5 (ix1 n)).toInt) := by
  funext i
  rw [Cert.Decoder.col_idx i, Cert.Decoder.result_apply]
  exact Cert.ReferenceIdeal.RefSide.ref_apply x0 x1 x2 x3 x4 x5 _

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the six arguments both programs end with the projected segment means of those
    arguments in their result buffers. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2.1, (hagree c).2.2.2.2.2]
  exact (Cert.ReferenceIdeal.ReadP.val_main_v28_eq _ _ _ _ _ _).trans (reference_common _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
